-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x112x112 : Shape := ⟨4, ![64, 64, 112, 112]⟩
abbrev S64 : Shape := ⟨1, ![64]⟩
abbrev S32x64 : Shape := ⟨2, ![32, 64]⟩
abbrev S_ : Shape := ⟨0, ![]⟩

class Facts : Prop where
  bcast_S_S64x64x112x112 : S_.BroadcastsInDim S64x64x112x112 (![] : Fin 0 → Fin S64x64x112x112.rank)
  reducesTo_S64x64x112x112_S_d0_1_2_3 : S64x64x112x112.ReducesTo [0, 1, 2, 3] S_
  h_S_ : 0 < S_.numel
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_arg4 : FVec F S32x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  main_v23

def fn {F : FTy → Type} [FloatOps F] (main_arg0 : FVec F S64x64x112x112 .f32) (main_arg1 : FVec F S64 .f32) (main_arg2 : FVec F S64 .f32) (main_arg3 : FVec F S32x64 .f32) (main_arg4 : FVec F S32x64 .f32) (main_arg5 : IVec S64 32) : IVec S_ 1 :=
  let main_v0 : FVec F S64x64x112x112 .f32 := Host.absf main_arg0
  let main_cst : FVec F S_ .f32 := constant S_ .f32 0x7F800000#32
  let main_v1 : FVec F S64x64x112x112 .f32 := broadcastInDim S64x64x112x112 ![] bcast_S_S64x64x112x112 main_cst
  let main_v2 : IVec S64x64x112x112 1 := cmpf .olt main_v0 main_v1
  let main_c : IVec S_ 1 := constantI S_ 1 1#1
  let main_v3 : IVec S_ 1 := (fun x v => Host.reduce IntOp.andi x v reducesTo_S64x64x112x112_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_v13 main_v16
-- ==== Kernel.lean ====
abbrev S64x64x112x112 : Shape := ⟨4, ![64, 64, 112, 112]⟩
abbrev S64 : Shape := ⟨1, ![64]⟩
abbrev S32x64 : Shape := ⟨2, ![32, 64]⟩
abbrev S64x64x1x1 : Shape := ⟨4, ![64, 64, 1, 1]⟩
abbrev S4x64x112x112 : Shape := ⟨4, ![4, 64, 112, 112]⟩
abbrev S4x64x1x1 : Shape := ⟨4, ![4, 64, 1, 1]⟩
abbrev S4x64x112 : Shape := ⟨3, ![4, 64, 112]⟩
abbrev S4x64x112x1 : Shape := ⟨4, ![4, 64, 112, 1]⟩
abbrev S4x64x1 : Shape := ⟨3, ![4, 64, 1]⟩
abbrev S64x64 : Shape := ⟨2, ![64, 64]⟩
abbrev S_ : Shape := ⟨0, ![]⟩
abbrev S64x1 : Shape := ⟨2, ![64, 1]⟩
abbrev S1x64 : Shape := ⟨2, ![1, 64]⟩
abbrev S2x64x112x112 : Shape := ⟨4, ![2, 64, 112, 112]⟩
abbrev S2x64x1x1 : Shape := ⟨4, ![2, 64, 1, 1]⟩

abbrev nBuf : Space → Nat
  | .hbm => 114
  | .vmem => 14
  | .smem => 0
  | _ => 0

abbrev bufTy : (tb : Table) → Fin (tcTables nBuf tb) → BufTy
  | .hbm, ⟨0, _⟩ => ⟨S64x64x112x112, .f32⟩
  | .hbm, ⟨1, _⟩ => ⟨S64, .f32⟩
  | .hbm, ⟨2, _⟩ => ⟨S64, .f32⟩
  | .hbm, ⟨3, _⟩ => ⟨S32x64, .f32⟩
  | .hbm, ⟨4, _⟩ => ⟨S32x64, .f32⟩
  | .hbm, ⟨5, _⟩ => ⟨S64, .i32⟩
  | .hbm, ⟨6, _⟩ => ⟨S64x64x1x1, .f32⟩
  | .hbm, ⟨7, _⟩ => ⟨S64x64x1x1, .f32⟩
  | .hbm, ⟨8, _⟩ => ⟨S64x64, .f32⟩
  | .hbm, ⟨9, _⟩ => ⟨S64x64, .f32⟩
  | .hbm, ⟨10, _⟩ => ⟨S_, .f32⟩
  | .hbm, ⟨11, _⟩ => ⟨S64x64, .f32⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S64, .i32⟩
  | .hbm, ⟨52, _⟩ => ⟨S64, .i32⟩
  | .hbm, ⟨53, _⟩ => ⟨S_, .i32⟩
  | .hbm, ⟨54, _⟩ => ⟨S64, .i32⟩
  | .hbm, ⟨55, _⟩ => ⟨S64, .i1⟩
  | .hbm, ⟨56, _⟩ => ⟨S_, .i32⟩
  | .hbm, ⟨57, _⟩ => ⟨S64, .i32⟩
  | .hbm, ⟨58, _⟩ => ⟨S64, .i1⟩
  | .hbm, ⟨59, _⟩ => ⟨S_, .i32⟩
  | .hbm, ⟨60, _⟩ => ⟨S_, .i1⟩
  | .hbm, ⟨61, _⟩ => ⟨S64, .i1⟩
  | .hbm, ⟨62, _⟩ => ⟨S64, .i1⟩
  | .hbm, ⟨63, _⟩ => ⟨S64, .i1⟩
  | .hbm, ⟨64, _⟩ => ⟨S64, .i32⟩
  | .hbm, ⟨65, _⟩ => ⟨S64, .i32⟩
  | .hbm, ⟨66, _⟩ => ⟨S64, .i32⟩
  | .hbm, ⟨67, _⟩ => ⟨S_, .i32⟩
  | .hbm, ⟨68, _⟩ => ⟨S64, .i32⟩
  | .hbm, ⟨69, _⟩ => ⟨S64, .i1⟩
  | .hbm, ⟨70, _⟩ => ⟨S_, .i32⟩
  | .hbm, ⟨71, _⟩ => ⟨S64, .i32⟩
  | .hbm, ⟨72, _⟩ => ⟨S64, .i32⟩
  | .hbm, ⟨73, _⟩ => ⟨S64, .i32⟩
  | .hbm, ⟨74, _⟩ => ⟨S64x1, .i32⟩
  | .hbm, ⟨75, _⟩ => ⟨S64x64, .f32⟩
  | .hbm, ⟨76, _⟩ => ⟨S_, .i32⟩
  | .hbm, ⟨77, _⟩ => ⟨S64, .i32⟩
  | .hbm, ⟨78, _⟩ => ⟨S64, .i1⟩
  | .hbm, ⟨79, _⟩ => ⟨S_, .i32⟩
  | .hbm, ⟨80, _⟩ => ⟨S64, .i32⟩
  | .hbm, ⟨81, _⟩ => ⟨S64, .i32⟩
  | .hbm, ⟨82, _⟩ => ⟨S64, .i32⟩
  | .hbm, ⟨83, _⟩ => ⟨S64x1, .i32⟩
  | .hbm, ⟨84, _⟩ => ⟨S64x64, .f32⟩
  | .hbm, ⟨85, _⟩ => ⟨S1x64, .f32⟩
  | .hbm, ⟨86, _⟩ => ⟨S_, .f32⟩
  | .hbm, ⟨87, _⟩ => ⟨S1x64, .f32⟩
  | .hbm, ⟨88, _⟩ => ⟨S1x64, .f32⟩
  | .hbm, ⟨89, _⟩ => ⟨S_, .f32⟩
  | .hbm, ⟨90, _⟩ => ⟨S64x64, .f32⟩
  | .hbm, ⟨91, _⟩ => ⟨S64x64, .f32⟩
  | .hbm, ⟨92, _⟩ => ⟨S64x64, .f32⟩
  | .hbm, ⟨93, _⟩ => ⟨S64x64, .f32⟩
  | .hbm, ⟨94, _⟩ => ⟨S64x64, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S_, .f32⟩
  | .hbm, ⟨101, _⟩ => ⟨S1x64, .f32⟩
  | .hbm, ⟨102, _⟩ => ⟨S1x64, .f32⟩
  | .hbm, ⟨103, _⟩ => ⟨S64x64, .f32⟩
  | .hbm, ⟨104, _⟩ => ⟨S64x64, .f32⟩
  | .hbm, ⟨105, _⟩ => ⟨S64x64, .f32⟩
  | .hbm, ⟨106, _⟩ => ⟨S_, .f32⟩
  | .hbm, ⟨107, _⟩ => ⟨S64x64, .f32⟩
  | .hbm, ⟨108, _⟩ => ⟨S64x64, .f32⟩
  | .hbm, ⟨109, _⟩ => ⟨S64x64, .f32⟩
  | .hbm, ⟨110, _⟩ => ⟨S64x64, .f32⟩
  | .hbm, ⟨111, _⟩ => ⟨S64x64x1x1, .f32⟩
  | .hbm, ⟨112, _⟩ => ⟨S64x64x1x1, .f32⟩
  | .hbm, ⟨113, _⟩ => ⟨S64x64x112x112, .f32⟩
  | .local _ .vmem, ⟨0, _⟩ => ⟨S4x64x112x112, .f32⟩
  | .local _ .vmem, ⟨1, _⟩ => ⟨S4x64x112x112, .f32⟩
  | .local _ .vmem, ⟨2, _⟩ => ⟨S4x64x1x1, .f32⟩
  | .local _ .vmem, ⟨3, _⟩ => ⟨S4x64x1x1, .f32⟩
  | .local _ .vmem, ⟨4, _⟩ => ⟨S4x64x1x1, .f32⟩
  | .local _ .vmem, ⟨5, _⟩ => ⟨S4x64x1x1, .f32⟩
  | .local _ .vmem, ⟨6, _⟩ => ⟨S2x64x112x112, .f32⟩
  | .local _ .vmem, ⟨7, _⟩ => ⟨S2x64x112x112, .f32⟩
  | .local _ .vmem, ⟨8, _⟩ => ⟨S2x64x1x1, .f32⟩
  | .local _ .vmem, ⟨9, _⟩ => ⟨S2x64x1x1, .f32⟩
  | .local _ .vmem, ⟨10, _⟩ => ⟨S2x64x1x1, .f32⟩
  | .local _ .vmem, ⟨11, _⟩ => ⟨S2x64x1x1, .f32⟩
  | .local _ .vmem, ⟨12, _⟩ => ⟨S2x64x112x112, .f32⟩
  | .local _ .vmem, ⟨13, _⟩ => ⟨S2x64x112x112, .f32⟩
  | _, _ => ⟨S64x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_1 : Ref sig .tc := ⟨.hbm, 53, rfl⟩
abbrev main_call0_v5 : Ref sig .tc := ⟨.hbm, 54, rfl⟩
abbrev main_call0_v6 : Ref sig .tc := ⟨.hbm, 55, rfl⟩
abbrev main_call0_c_2 : Ref sig .tc := ⟨.hbm, 56, rfl⟩
abbrev main_call0_v7 : Ref sig .tc := ⟨.hbm, 57, rfl⟩
abbrev main_call0_v8 : Ref sig .tc := ⟨.hbm, 58, rfl⟩
abbrev main_call0_c_3 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_v28 : Ref sig .tc := ⟨.hbm, 66, rfl⟩
abbrev main_c_9 : Ref sig .tc := ⟨.hbm, 67, rfl⟩
abbrev main_v29 : Ref sig .tc := ⟨.hbm, 68, rfl⟩
abbrev main_v30 : Ref sig .tc := ⟨.hbm, 69, rfl⟩
abbrev main_c_10 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_11 : Ref sig .tc := ⟨.hbm, 76, rfl⟩
abbrev main_v36 : Ref sig .tc := ⟨.hbm, 77, rfl⟩
abbrev main_v37 : Ref sig .tc := ⟨.hbm, 78, rfl⟩
abbrev main_c_12 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_13 : Ref sig .tc := ⟨.hbm, 86, rfl⟩
abbrev main_v44 : Ref sig .tc := ⟨.hbm, 87, rfl⟩
abbrev main_v45 : Ref sig .tc := ⟨.hbm, 88, rfl⟩
abbrev main_cst_14 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_15 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_16 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x64x112x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x64x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x64x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x64x112x112 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4x64x112x112_S4x64x112x112_0_0_0_0 : ∀ a, (![0, 0, 0, 0] : Fin 4 → Nat) a + S4x64x112x112.size a ≤ S4x64x112x112.size a
  h_S4x64x112x112 : 0 < S4x64x112x112.numel
  reduces_S4x64x112x112_S4x64x112 : S4x64x112x112.Reduces [3] S4x64x112
  shapeCasts_S4x64x112_S4x64x112x1 : S4x64x112.ShapeCasts S4x64x112x1
  reduces_S4x64x112x1_S4x64x1 : S4x64x112x1.Reduces [2] S4x64x1
  shapeCasts_S4x64x1_S4x64x1x1 : S4x64x1.ShapeCasts S4x64x1x1
  inb_S4x64x1x1_S4x64x1x1_0_0_0_0 : ∀ a, (![0, 0, 0, 0] : Fin 4 → Nat) a + S4x64x1x1.size a ≤ S4x64x1x1.size a
  h_S4x64x1x1 : 0 < S4x64x1x1.numel
  shapeCasts_S64x64x1x1_S64x64 : S64x64x1x1.ShapeCasts S64x64
  bcast_S_S64x64 : S_.BroadcastsInDim S64x64 (![] : Fin 0 → Fin S64x64.rank)
  reducesTo_S64x64_S64_d0 : S64x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S64x64_0_1 : S1x64.BroadcastsInDim S64x64 (![0, 1] : Fin 2 → Fin S64x64.rank)
  shapeCasts_S64x64_S64x64x1x1 : S64x64.ShapeCasts S64x64x1x1
  inb_S2x64x112x112_S2x64x112x112_0_0_0_0 : ∀ a, (![0, 0, 0, 0] : Fin 4 → Nat) a + S2x64x112x112.size a ≤ S2x64x112x112.size a
  h_S2x64x112x112 : 0 < S2x64x112x112.numel
  inb_S2x64x1x1_S2x64x1x1_0_0_0_0 : ∀ a, (![0, 0, 0, 0] : Fin 4 → Nat) a + S2x64x1x1.size a ≤ S2x64x1x1.size a
  h_S2x64x1x1 : 0 < S2x64x1x1.numel
  shapeCasts_S2x64x1x1_S2x64x1x1 : S2x64x1x1.ShapeCasts S2x64x1x1
  broadcasts_S2x64x1x1_S2x64x112x112 : S2x64x1x1.Broadcasts S2x64x112x112
  gather_S32x64_S64x1_S64x64_1_0_n_n_0_1_164_wf : GatherDims.WF S32x64 S64x1 S64x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x112x112.size a ≤ S64x64x112x112.size a
  hwx0_0 : ∀ i : grid0.Coords, EltTy.bits .f32 = 32 ∨ (Rect.block (s := S64x64x112x112) S4x64x112x112.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x1x1.size a ≤ S64x64x1x1.size a
  hwx0_1 : ∀ i : grid0.Coords, EltTy.bits .f32 = 32 ∨ (Rect.block (s := S64x64x1x1) S4x64x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x1x1.size a ≤ S64x64x1x1.size a
  hwx0_2 : ∀ i : grid0.Coords, EltTy.bits .f32 = 32 ∨ (Rect.block (s := S64x64x1x1) S4x64x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x64x112x112.size a ≤ S64x64x112x112.size a
  hwx1_0 : ∀ i : grid1.Coords, EltTy.bits .f32 = 32 ∨ (Rect.block (s := S64x64x112x112) S2x64x112x112.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x64x1x1.size a ≤ S64x64x1x1.size a
  hwx1_1 : ∀ i : grid1.Coords, EltTy.bits .f32 = 32 ∨ (Rect.block (s := S64x64x1x1) S2x64x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x64x1x1.size a ≤ S64x64x1x1.size a
  hwx1_2 : ∀ i : grid1.Coords, EltTy.bits .f32 = 32 ∨ (Rect.block (s := S64x64x1x1) S2x64x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x64x112x112.size a ≤ S64x64x112x112.size a
  hwx1_3 : ∀ i : grid1.Coords, EltTy.bits .f32 = 32 ∨ (Rect.block (s := S64x64x112x112) S2x64x112x112.size (cc1_transform_3 i) (hinb1_3 i)).WholeWords (EltTy.packing .f32)

variable [Facts₀]

def gather_S32x64_S64x1_S64x64_1_0_n_n_0_1_164 : GatherDims S32x64 S64x1 S64x64 where
  offsetDims := [1]
  collapsedSliceDims := [0]
  operandBatchingDims := []
  startIndicesBatchingDims := []
  startIndexMap := [0]
  indexVectorDim := 1
  sliceSizes := ![1, 64]
  wf := gather_S32x64_S64x1_S64x64_1_0_n_n_0_1_164_wf

abbrev win0_0 : Pipeline.Window sig grid0 :=
  Pipeline.Window.ofSpec (Memref.whole main_arg0) S4x64x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4x64x1x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4x64x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2x64x112x112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S2x64x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S2x64x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v67) S2x64x112x112.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x64x112x112 : Shape := ⟨4, ![64, 64, 112, 112]⟩
abbrev S64 : Shape := ⟨1, ![64]⟩
abbrev S32x64 : Shape := ⟨2, ![32, 64]⟩
abbrev S_ : Shape := ⟨0, ![]⟩
abbrev S1x64x1x1 : Shape := ⟨4, ![1, 64, 1, 1]⟩
abbrev S64x64 : Shape := ⟨2, ![64, 64]⟩
abbrev S64x64x1x1 : Shape := ⟨4, ![64, 64, 1, 1]⟩
abbrev S64x1 : Shape := ⟨2, ![64, 1]⟩

abbrev nBuf : Space → Nat
  | .hbm => 139
  | .vmem => 0
  | .smem => 0
  | _ => 0

abbrev hbmTy0_0 (i : Nat) : BufTy := match i % 128 with
  | 0 => ⟨S64x64x112x112, .f32⟩
  | 1 => ⟨S64, .f32⟩
  | 2 => ⟨S64, .f32⟩
  | 3 => ⟨S32x64, .f32⟩
  | 4 => ⟨S32x64, .f32⟩
  | 5 => ⟨S64, .i32⟩
  | 6 => ⟨S_, .f32⟩
  | 7 => ⟨S64, .f32⟩
  | 8 => ⟨S_, .f32⟩
  | 9 => ⟨S64, .f32⟩
  | 10 => ⟨S64, .f32⟩
  | 11 => ⟨S_, .i32⟩
  | 12 => ⟨S_, .f32⟩
  | 13 => ⟨S64, .f32⟩
  | 14 => ⟨S1x64x1x1, .f32⟩
  | 15 => ⟨S_, .f32⟩
  | 16 => ⟨S1x64x1x1, .f32⟩
  | 17 => ⟨S1x64x1x1, .f32⟩
  | 18 => ⟨S64x64x112x112, .f32⟩
  | 19 => ⟨S64x64x112x112, .f32⟩
  | 20 => ⟨S64x64x112x112, .f32⟩
  | 21 => ⟨S_, .f32⟩
  | 22 => ⟨S_, .f32⟩
  | 23 => ⟨S_, .f32⟩
  | 24 => ⟨S_, .f32⟩
  | 25 => ⟨S64, .f32⟩
  | 26 => ⟨S64, .f32⟩
  | 27 => ⟨S64, .f32⟩
  | 28 => ⟨S_, .f32⟩
  | 29 => ⟨S_, .i1⟩
  | 30 => ⟨S_, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S64, .f32⟩
  | 38 => ⟨S1x64x1x1, .f32⟩
  | 39 => ⟨S64x64x112x112, .f32⟩
  | 40 => ⟨S64x64x112x112, .f32⟩
  | 41 => ⟨S64, .f32⟩
  | 42 => ⟨S1x64x1x1, .f32⟩
  | 43 => ⟨S64x64x112x112, .f32⟩
  | 44 => ⟨S64x64x112x112, .f32⟩
  | 45 => ⟨S1x64x1x1, .f32⟩
  | 46 => ⟨S64x64x112x112, .f32⟩
  | 47 => ⟨S64x64x112x112, .f32⟩
  | 48 => ⟨S_, .f32⟩
  | 49 => ⟨S64x64, .f32⟩
  | 50 => ⟨S64x64x1x1, .f32⟩
  | 51 => ⟨S_, .f32⟩
  | 52 => ⟨S64x64x1x1, .f32⟩
  | 53 => ⟨S64x64x1x1, .f32⟩
  | 54 => ⟨S_, .i32⟩
  | 55 => ⟨S_, .f32⟩
  | 56 => ⟨S64x64, .f32⟩
  | 57 => ⟨S64x64x1x1, .f32⟩
  | 58 => ⟨S_, .f32⟩
  | 59 => ⟨S64x64x1x1, .f32⟩
  | 60 => ⟨S64x64x1x1, .f32⟩
  | 61 => ⟨S64x64x112x112, .f32⟩
  | 62 => ⟨S64x64x112x112, .f32⟩
  | 63 => ⟨S64x64x112x112, .f32⟩
  | 64 => ⟨S_, .f32⟩
  | 65 => ⟨S_, .f32⟩
  | 66 => ⟨S_, .f32⟩
  | 67 => ⟨S_, .f32⟩
  | 68 => ⟨S64x64, .f32⟩
  | 69 => ⟨S64x64x1x1, .f32⟩
  | 70 => ⟨S64x64x1x1, .f32⟩
  | 71 => ⟨S64x64x1x1, .f32⟩
  | 72 => ⟨S_, .f32⟩
  | 73 => ⟨S_, .i1⟩
  | 74 => ⟨S_, .f32⟩
  | 75 => ⟨S_, .f32⟩
  | 76 => ⟨S64x64x1x1, .f32⟩
  | 77 => ⟨S64x64x1x1, .f32⟩
  | 78 => ⟨S64x64x112x112, .f32⟩
  | 79 => ⟨S64x64x112x112, .f32⟩
  | 80 => ⟨S_, .f32⟩
  | 81 => ⟨S64x64x1x1, .f32⟩
  | 82 => ⟨S64x64x1x1, .f32⟩
  | 83 => ⟨S64x64x1x1, .f32⟩
  | 84 => ⟨S64x64x112x112, .f32⟩
  | 85 => ⟨S64x64x112x112, .f32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S64, .i32⟩
  | 93 => ⟨S64, .i32⟩
  | 94 => ⟨S_, .i32⟩
  | 95 => ⟨S64, .i32⟩
  | 96 => ⟨S64, .i1⟩
  | 97 => ⟨S_, .i32⟩
  | 98 => ⟨S64, .i32⟩
  | 99 => ⟨S64, .i1⟩
  | 100 => ⟨S_, .i32⟩
  | 101 => ⟨S_, .i1⟩
  | 102 => ⟨S64, .i1⟩
  | 103 => ⟨S64, .i1⟩
  | 104 => ⟨S64, .i1⟩
  | 105 => ⟨S64, .i32⟩
  | 106 => ⟨S64, .i32⟩
  | 107 => ⟨S64, .i32⟩
  | 108 => ⟨S_, .i32⟩
  | 109 => ⟨S64, .i32⟩
  | 110 => ⟨S64, .i1⟩
  | 111 => ⟨S_, .i32⟩
  | 112 => ⟨S64, .i32⟩
  | 113 => ⟨S64, .i32⟩
  | 114 => ⟨S64, .i32⟩
  | 115 => ⟨S64x1, .i32⟩
  | 116 => ⟨S64x64, .f32⟩
  | 117 => ⟨S64x64x1x1, .f32⟩
  | 118 => ⟨S_, .i32⟩
  | 119 => ⟨S64, .i32⟩
  | 120 => ⟨S64, .i1⟩
  | 121 => ⟨S_, .i32⟩
  | 122 => ⟨S64, .i32⟩
  | 123 => ⟨S64, .i32⟩
  | 124 => ⟨S64, .i32⟩
  | 125 => ⟨S64x1, .i32⟩
  | 126 => ⟨S64x64, .f32⟩
  | 127 => ⟨S64x64x1x1, .f32⟩
  | _ => ⟨S64x64x112x112, .f32⟩

abbrev hbmTy0_1 (i : Nat) : BufTy := match i % 128 with
  | 0 => ⟨S64x64x112x112, .f32⟩
  | 1 => ⟨S64x64x112x112, .f32⟩
  | 2 => ⟨S64x64x112x112, .f32⟩
  | 3 => ⟨S64x64x112x112, .f32⟩
  | 4 => ⟨S_, .f32⟩
  | 5 => ⟨S64x64x112x112, .f32⟩
  | 6 => ⟨S64x64x112x112, .f32⟩
  | 7 => ⟨S_, .f32⟩
  | 8 => ⟨S64x64x112x112, .f32⟩
  | 9 => ⟨S64x64x112x112, .f32⟩
  | 10 => ⟨S64x64x112x112, .f32⟩
  | _ => ⟨S64x64x112x112, .f32⟩

abbrev hbmTy (i : Nat) : BufTy := match i / 128 with
  | 0 => hbmTy0_0 i
  | 1 => hbmTy0_1 i
  | _ => ⟨S64x64x112x112, .f32⟩

abbrev bufTy : (tb : Table) → Fin (tcTables nBuf tb) → BufTy
  | .hbm, ⟨i, _⟩ => hbmTy i
  | _, _ => ⟨S64x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_cst_3 : Ref sig .tc := ⟨.hbm, 28, rfl⟩
abbrev main_call0_v12 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_c_4 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_cst_3 : Ref sig .tc := ⟨.hbm, 72, rfl⟩
abbrev main_call1_v13 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_5 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_c_6 : Ref sig .tc := ⟨.hbm, 86, rfl⟩
abbrev main_call2_v0 : Ref sig .tc := ⟨.hbm, 87, rfl⟩
abbrev main_call2_c : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_1 : Ref sig .tc := ⟨.hbm, 94, rfl⟩
abbrev main_call2_v5 : Ref sig .tc := ⟨.hbm, 95, rfl⟩
abbrev main_call2_v6 : Ref sig .tc := ⟨.hbm, 96, rfl⟩
abbrev main_call2_c_2 : Ref sig .tc := ⟨.hbm, 97, rfl⟩
abbrev main_call2_v7 : Ref sig .tc := ⟨.hbm, 98, rfl⟩
abbrev main_call2_v8 : Ref sig .tc := ⟨.hbm, 99, rfl⟩
abbrev main_call2_c_3 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_v29 : Ref sig .tc := ⟨.hbm, 107, rfl⟩
abbrev main_c_7 : Ref sig .tc := ⟨.hbm, 108, rfl⟩
abbrev main_v30 : Ref sig .tc := ⟨.hbm, 109, rfl⟩
abbrev main_v31 : Ref sig .tc := ⟨.hbm, 110, rfl⟩
abbrev main_c_8 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_c_9 : Ref sig .tc := ⟨.hbm, 118, rfl⟩
abbrev main_v38 : Ref sig .tc := ⟨.hbm, 119, rfl⟩
abbrev main_v39 : Ref sig .tc := ⟨.hbm, 120, rfl⟩
abbrev main_c_10 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_cst_11 : Ref sig .tc := ⟨.hbm, 132, rfl⟩
abbrev main_v50 : Ref sig .tc := ⟨.hbm, 133, rfl⟩
abbrev main_v51 : Ref sig .tc := ⟨.hbm, 134, rfl⟩
abbrev main_cst_12 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩

abbrev nD : Nat := 1
abbrev τ : Topo := Topo.v7x

variable {F : FTy → Type} [FloatOps F]

class Facts₀ : Prop where
  reducesTo_S64x64x112x112_S64_d0_2_3 : S64x64x112x112.ReducesTo [0, 2, 3] S64
  h_S_ : 0 < S_.numel
  bcast_S_S64 : S_.BroadcastsInDim S64 (![] : Fin 0 → Fin S64.rank)
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S64x64x112x112_0_1_2_3 : S1x64x1x1.BroadcastsInDim S64x64x112x112 (![0, 1, 2, 3] : Fin 4 → Fin S64x64x112x112.rank)
  reducesTo_S64x64x112x112_S64x64_d2_3 : S64x64x112x112.ReducesTo [2, 3] S64x64
  bcast_S64x64_S64x64x1x1_0_1 : S64x64.BroadcastsInDim S64x64x1x1 (![0, 1] : Fin 2 → Fin S64x64x1x1.rank)
  bcast_S_S64x64x1x1 : S_.BroadcastsInDim S64x64x1x1 (![] : Fin 0 → Fin S64x64x1x1.rank)
  bcast_S64x64x1x1_S64x64x112x112_0_1_2_3 : S64x64x1x1.BroadcastsInDim S64x64x112x112 (![0, 1, 2, 3] : Fin 4 → Fin S64x64x112x112.rank)
  bcast_S64_S64x1_0 : S64.BroadcastsInDim S64x1 (![0] : Fin 1 → Fin S64x1.rank)
  bcast_S_S64x64x112x112 : S_.BroadcastsInDim S64x64x112x112 (![] : Fin 0 → Fin S64x64x112x112.rank)
  gather_S32x64_S64x1_S64x64_1_0_n_n_0_1_164_wf : GatherDims.WF S32x64 S64x1 S64x64 [1] [0] [] [0] [] 1 ![1, 64]

variable [Facts₀]

def gather_S32x64_S64x1_S64x64_1_0_n_n_0_1_164 : GatherDims S32x64 S64x1 S64x64 where
  offsetDims := [1]
  collapsedSliceDims := [0]
  operandBatchingDims := []
  startIndicesBatchingDims := []
  startIndexMap := [0]
  indexVectorDim := 1
  sliceSizes := ![1, 64]
  wf := gather_S32x64_S64x1_S64x64_1_0_n_n_0_1_164_wf

class Facts : Prop extends Facts₀ where

variable [Facts]
-- ==== Proof.Spec.lean ====
/-
  The two programs' results as formulas, index by index, over the extended reals.

  Both programs blend two normalizations of x : [64, 64, 112, 112] with weight 1/2 each: a batch normalization over
  (batch, height, width) per channel, and a per-sample normalization over (height, width) per (sample, channel) whose scale and
  shift rows are picked per sample from two [32, 64] tables (the rows arrive here already picked, as the [64, 64] arrays g, bg).

  The kernel takes, per (sample, channel), the plane's sum and sum of squares, forms mean and variance as E[x²] − E[x]² cut off
  below at 0, re-sums the per-plane sums over the batch for the channel statistics, and folds everything into ONE affine map
  per (sample, channel): out = x · A + B.  The reference takes each variance as the mean of squared deviations from the mean and
  applies the two normalizations to x one after the other.  Module Algebra shows the two are one function when every input is a real.
-/
import Idealize.ShloMosaic.PureOps.Ideal
import Idealize.ShloMosaic.PureOps.Ideal.Laws
import Idealize.ShloMosaic.Lib.ValueIdx

noncomputable section

namespace Cert.Blend

open Idealize.ShloMosaic Idealize.ShloMosaic.ValueIdx

/-- The input tensor, a [64, 64] array, a [64] array: extended reals by index. -/
abbrev T4 : Type := (⟨4, ![64, 64, 112, 112]⟩ : Shape).Idx → EReal
abbrev T2 : Type := (⟨2, ![64, 64]⟩ : Shape).Idx → EReal
abbrev T1 : Type := (⟨1, ![64]⟩ : Shape).Idx → EReal

/-- The float words both programs spell: 12544 = 112·112, 802816 = 64·112·112, the f32 nearest 1e-5, and 1/2. -/
def nHW : EReal := Ideal.ofBits .f32 0x46440000#32
def nBHW : EReal := Ideal.ofBits .f32 0x49440000#32
def eps : EReal := Ideal.ofBits .f32 0x3727C5AC#32
def half : EReal := Ideal.ofBits .f32 0x3F000000#32

/-! ## Sums over a plane and over a channel -/

/-- The sum of plane (b, c): over the height, of the sums over the width. -/
def sumS (x : T4) (b c : Fin 64) : EReal := ∑ h : Fin 112, ∑ w : Fin 112, x (ix4 b c h w)
/-- The sum of squares of plane (b, c). -/
def sumSqS (x : T4) (b c : Fin 64) : EReal := ∑ h : Fin 112, ∑ w : Fin 112, x (ix4 b c h w) * x (ix4 b c h w)
/-- The sum of channel c: over the batch, of the plane sums. -/
def sumG (x : T4) (c : Fin 64) : EReal := ∑ b : Fin 64, sumS x b c
/-- The sum of squares of channel c. -/
def sumSqG (x : T4) (c : Fin 64) : EReal := ∑ b : Fin 64, sumSqS x b c

/-- The mean of plane (b, c), and of channel c: both programs divide the sum by the count. -/
def muS (x : T4) (b c : Fin 64) : EReal := Ideal.div (sumS x b c) nHW
def muG (x : T4) (c : Fin 64) : EReal := Ideal.div (sumG x c) nBHW

/-! ## The kernel: one-pass variances, one affine map per plane -/

def kVarS (x : T4) (b c : Fin 64) : EReal := max (Ideal.div (sumSqS x b c) nHW - muS x b c * muS x b c) 0
def kInvS (x : T4) (b c : Fin 64) : EReal := Ideal.rsqrt (kVarS x b c + eps)
def kVarG (x : T4) (c : Fin 64) : EReal := max (Ideal.div (sumSqG x c) nBHW - muG x c * muG x c) 0
def kInvG (x : T4) (c : Fin 64) : EReal := Ideal.rsqrt (kVarG x c + eps)
/-- The channel scale γ · inv_g. -/
def kScaleG (x : T4) (γ : T1) (c : Fin 64) : EReal := γ (ix1 c) * kInvG x c
/-- The slope of plane (b, c). -/
def kA (x : T4) (γ : T1) (g : T2) (b c : Fin 64) : EReal :=
  half * kScaleG x γ c + (half * kInvS x b c) * g (ix2 b c)
/-- The offset of plane (b, c). -/
def kB (x : T4) (γ β : T1) (g bg : T2) (b c : Fin 64) : EReal :=
  half * (β (ix1 c) - muG x c * kScaleG x γ c) + half * (bg (ix2 b c) - (muS x b c * kInvS x b c) * g (ix2 b c))
/-- The kernel's result at (b, c, h, w). -/
def kernelOut (x : T4) (γ β : T1) (g bg : T2) (b c : Fin 64) (h w : Fin 112) : EReal :=
  x (ix4 b c h w) * kA x γ g b c + kB x γ β g bg b c

/-! ## The reference: two-pass variances, the two normalizations applied to x -/

def rVarS (x : T4) (b c : Fin 64) : EReal :=
  Ideal.div (∑ h : Fin 112, ∑ w : Fin 112, (x (ix4 b c h w) - muS x b c) * (x (ix4 b c h w) - muS x b c)) nHW
def rInvS (x : T4) (b c : Fin 64) : EReal := Ideal.rsqrt (rVarS x b c + eps)
def rVarG (x : T4) (c : Fin 64) : EReal :=
  Ideal.div (∑ b : Fin 64, ∑ h : Fin 112, ∑ w : Fin 112, (x (ix4 b c h w) - muG x c) * (x (ix4 b c h w) - muG x c)) nBHW
def rInvG (x : T4) (c : Fin 64) : EReal := Ideal.rsqrt (rVarG x c + eps)
/-- The reference's result at (b, c, h, w). -/
def refOut (x : T4) (γ β : T1) (g bg : T2) (b c : Fin 64) (h w : Fin 112) : EReal :=
  half * ((x (ix4 b c h w) - muG x c) * (γ (ix1 c) * rInvG x c) + β (ix1 c))
    + half * (((x (ix4 b c h w) - muS x b c) * rInvS x b c) * g (ix2 b c) + bg (ix2 b c))

end Cert.Blend

end
-- ==== Proof.Consts.lean ====
/-
  The four float words both programs spell, as the numbers they denote: 12544 = 112², 802816 = 64 · 112²,
  1/2, and the f32 nearest to 10⁻⁵ (a positive real; its exact value is never needed, only that it is one).
-/
import Idealize.ShloMosaic.PureOps.Ideal
import proofs.«139731_j76192719831877_2_alg».proof.Proof.Spec

noncomputable section

namespace Cert.Blend.Consts

open Idealize.ShloMosaic

theorem ofBits_nHW : Ideal.ofBits .f32 0x46440000#32 = ((12544 : ℝ) : EReal) := by
  simp [Ideal.ofBits, Ideal.ieee, -EReal.coe_mul]; norm_num

theorem ofBits_nBHW : Ideal.ofBits .f32 0x49440000#32 = ((802816 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The word for 10⁻⁵ denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

theorem nHW_eq : Cert.Blend.nHW = ((12544 : ℝ) : EReal) := ofBits_nHW
theorem nBHW_eq : Cert.Blend.nBHW = ((802816 : ℝ) : EReal) := ofBits_nBHW
theorem half_eq : Cert.Blend.half = ((1 / 2 : ℝ) : EReal) := ofBits_half
theorem eps_eq : ∃ e : ℝ, 0 < e ∧ Cert.Blend.eps = (e : EReal) := ofBits_eps

end Cert.Blend.Consts

end
-- ==== Proof.LibVariance.lean ====
/-
  One-pass and two-pass variance are one number over the reals, and the small facts that carry real arithmetic into the
  extended reals (library-only imports; nothing here mentions a program).

  For finitely many reals f_i, N of them, with mean μ = (∑ f_i)/N:   (∑ (f_i − μ)²)/N = (∑ f_i²)/N − μ²  and it is ≥ 0,
  so cutting the right-hand side off below at 0 changes nothing (var_two_pass, var_nonneg, max_one_pass: a kernel's
  max(E[x²] − E[x]², 0) against a reference's mean of squared deviations).  A finite sum, a maximum, a quotient by a nonzero
  real and the reciprocal square root of a positive real stay in the reals (coe_sum, coe_max, div_real, rsqrt_real).
  Nested sums over (height, width) and (batch, height, width) of extents 112 and 64 as single sums over products, with the
  counts 12544 and 802816 (sum_plane, sum_channel, card_plane, card_channel).
-/
import Idealize.ShloMosaic.PureOps.Ideal
import Idealize.ShloMosaic.PureOps.Ideal.Laws

noncomputable section

open scoped BigOperators

namespace Cert.Blend

open Idealize.ShloMosaic

/-! ## The reals inside the extended reals -/

/-- A finite sum of reals, taken in the extended reals, is the image of the real sum. -/
theorem coe_sum {ι : Type*} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- The larger of two reals, taken in the extended reals. -/
theorem coe_max (a b : ℝ) : ((max a b : ℝ) : EReal) = max (a : EReal) (b : EReal) :=
  EReal.coe_strictMono.monotone.map_max

/-- Division by a nonzero real word stays in the reals. -/
theorem div_real (a n : ℝ) (hn : n ≠ 0) : Ideal.div (a : EReal) (n : EReal) = ((a / n : ℝ) : EReal) := by
  rw [Ideal.div_coe hn, ← EReal.coe_mul, mul_one_div]

/-- The reciprocal square root of a positive real is a real. -/
theorem rsqrt_real (r : ℝ) (hr : 0 < r) : Ideal.rsqrt (r : EReal) = (((Real.sqrt r)⁻¹ : ℝ) : EReal) := by
  rw [Ideal.rsqrt_coe, if_neg (not_lt.mpr hr.le), if_neg hr.ne']

/-! ## One pass or two: the variance identity -/

/-- The mean of squared deviations from the mean is the mean of squares less the squared mean. -/
theorem var_two_pass {ι : Type*} [Fintype ι] (f : ι → ℝ) (N : ℝ) (hcard : (Fintype.card ι : ℝ) = N) (hN : N ≠ 0) :
    (∑ i, (f i - (∑ j, f j) / N) * (f i - (∑ j, f j) / N)) / N
      = (∑ i, f i * f i) / N - (∑ j, f j) / N * ((∑ j, f j) / N) := by
  obtain ⟨S, hS⟩ : ∃ S, S = ∑ j, f j := ⟨_, rfl⟩
  rw [← hS]
  have expand : ∀ i, (f i - S / N) * (f i - S / N) = f i * f i - 2 * (S / N) * f i + S / N * (S / N) := fun i => by ring
  simp only [expand, Finset.sum_add_distrib, Finset.sum_sub_distrib, ← Finset.mul_sum, Finset.sum_const, Finset.card_univ,
    nsmul_eq_mul, hcard, ← hS]
  field_simp
  ring

/-- … and it is not negative. -/
theorem var_nonneg {ι : Type*} [Fintype ι] (f : ι → ℝ) (μ N : ℝ) (hN : 0 < N) : 0 ≤ (∑ i, (f i - μ) * (f i - μ)) / N :=
  div_nonneg (Finset.sum_nonneg fun i _ => mul_self_nonneg _) hN.le

/-- So the one-pass form, cut off below at 0, IS the two-pass form. -/
theorem max_one_pass {ι : Type*} [Fintype ι] (f : ι → ℝ) (N : ℝ) (hcard : (Fintype.card ι : ℝ) = N) (hN : 0 < N) :
    max ((∑ i, f i * f i) / N - (∑ j, f j) / N * ((∑ j, f j) / N)) 0
      = (∑ i, (f i - (∑ j, f j) / N) * (f i - (∑ j, f j) / N)) / N := by
  rw [← var_two_pass f N hcard hN.ne']
  exact max_eq_left (var_nonneg f _ N hN)

/-- A double sum over height and width is one sum over the plane's 112 · 112 positions. -/
theorem sum_plane (F : Fin 112 → Fin 112 → ℝ) : ∑ h, ∑ w, F h w = ∑ p : Fin 112 × Fin 112, F p.1 p.2 :=
  (Fintype.sum_prod_type (fun p : Fin 112 × Fin 112 => F p.1 p.2)).symm

/-- A triple sum over batch, height and width is one sum over the channel's 64 · 112 · 112 positions. -/
theorem sum_channel (F : Fin 64 → Fin 112 → Fin 112 → ℝ) :
    ∑ b, ∑ h, ∑ w, F b h w = ∑ p : Fin 64 × Fin 112 × Fin 112, F p.1 p.2.1 p.2.2 := by
  rw [Fintype.sum_prod_type]
  refine Finset.sum_congr rfl fun b _ => ?_
  rw [Fintype.sum_prod_type]

theorem card_plane : (Fintype.card (Fin 112 × Fin 112) : ℝ) = 12544 := by
  simp [Fintype.card_prod]

theorem card_channel : (Fintype.card (Fin 64 × Fin 112 × Fin 112) : ℝ) = 802816 := by
  simp [Fintype.card_prod]

end Cert.Blend

end
-- ==== Proof.Algebra.lean ====
/-
  The two programs' formulas (module Spec) are one function when every input is a real.

  With x the image of a real tensor, each plane sum, sum of squares and mean is the image of the real one; the kernel's
  variance max(E[x²] − E[x]², 0) and the reference's E[(x − E[x])²] are the same real (module LibVariance), per plane over
  its 112 · 112 positions and per channel over its 64 · 112 · 112 positions; variance + ε is a positive real, so its reciprocal
  square root is a real; and the kernel's folded affine map equals the reference's two normalizations by distributivity in ℝ.
-/
import proofs.«139731_j76192719831877_2_alg».proof.Proof.Spec
import proofs.«139731_j76192719831877_2_alg».proof.Proof.Consts
import proofs.«139731_j76192719831877_2_alg».proof.Proof.LibVariance

noncomputable section

open scoped BigOperators

namespace Cert.Blend

open Idealize.ShloMosaic Idealize.ShloMosaic.ValueIdx

/-- A real tensor as an extended-real one. -/
abbrev lift4 (xr : (⟨4, ![64, 64, 112, 112]⟩ : Shape).Idx → ℝ) : T4 := fun i => (xr i : EReal)

section
variable (xr : (⟨4, ![64, 64, 112, 112]⟩ : Shape).Idx → ℝ)

/-! ## The plane and channel statistics of a real tensor are reals -/

/-- The real plane sum, sum of squares, and the channel ones. -/
def rS (b c : Fin 64) : ℝ := ∑ h : Fin 112, ∑ w : Fin 112, xr (ix4 b c h w)
def rQ (b c : Fin 64) : ℝ := ∑ h : Fin 112, ∑ w : Fin 112, xr (ix4 b c h w) * xr (ix4 b c h w)
def rSG (c : Fin 64) : ℝ := ∑ b : Fin 64, ∑ h : Fin 112, ∑ w : Fin 112, xr (ix4 b c h w)
def rQG (c : Fin 64) : ℝ := ∑ b : Fin 64, ∑ h : Fin 112, ∑ w : Fin 112, xr (ix4 b c h w) * xr (ix4 b c h w)
/-- The real two-pass variances. -/
def rVS (b c : Fin 64) : ℝ :=
  (∑ h : Fin 112, ∑ w : Fin 112, (xr (ix4 b c h w) - rS xr b c / 12544) * (xr (ix4 b c h w) - rS xr b c / 12544)) / 12544
def rVG (c : Fin 64) : ℝ :=
  (∑ b : Fin 64, ∑ h : Fin 112, ∑ w : Fin 112,
    (xr (ix4 b c h w) - rSG xr c / 802816) * (xr (ix4 b c h w) - rSG xr c / 802816)) / 802816

theorem sumS_lift (b c : Fin 64) : sumS (lift4 xr) b c = (rS xr b c : EReal) := by
  unfold sumS rS; rw [coe_sum]; exact Finset.sum_congr rfl fun h _ => (coe_sum _ _).symm

theorem sumSqS_lift (b c : Fin 64) : sumSqS (lift4 xr) b c = (rQ xr b c : EReal) := by
  unfold sumSqS rQ; rw [coe_sum]
  refine Finset.sum_congr rfl fun h _ => ?_
  rw [coe_sum]; exact Finset.sum_congr rfl fun w _ => (EReal.coe_mul _ _).symm

theorem sumG_lift (c : Fin 64) : sumG (lift4 xr) c = (rSG xr c : EReal) := by
  unfold sumG rSG; rw [coe_sum]; exact Finset.sum_congr rfl fun b _ => sumS_lift xr b c

theorem sumSqG_lift (c : Fin 64) : sumSqG (lift4 xr) c = (rQG xr c : EReal) := by
  unfold sumSqG rQG; rw [coe_sum]; exact Finset.sum_congr rfl fun b _ => sumSqS_lift xr b c

theorem muS_lift (b c : Fin 64) : muS (lift4 xr) b c = ((rS xr b c / 12544 : ℝ) : EReal) := by
  unfold muS; rw [sumS_lift, Consts.nHW_eq, div_real _ _ (by norm_num)]

theorem muG_lift (c : Fin 64) : muG (lift4 xr) c = ((rSG xr c / 802816 : ℝ) : EReal) := by
  unfold muG; rw [sumG_lift, Consts.nBHW_eq, div_real _ _ (by norm_num)]

/-! ## The two variances are one real, not negative -/

theorem rVS_nonneg (b c : Fin 64) : 0 ≤ rVS xr b c := by
  unfold rVS; rw [sum_plane]; exact var_nonneg _ _ _ (by norm_num)

theorem rVG_nonneg (c : Fin 64) : 0 ≤ rVG xr c := by
  unfold rVG; rw [sum_channel]; exact var_nonneg _ _ _ (by norm_num)

theorem rVarS_lift (b c : Fin 64) : rVarS (lift4 xr) b c = (rVS xr b c : EReal) := by
  unfold rVarS rVS
  rw [muS_lift, Consts.nHW_eq]
  have hsum : (∑ h : Fin 112, ∑ w : Fin 112, (lift4 xr (ix4 b c h w) - ((rS xr b c / 12544 : ℝ) : EReal))
        * (lift4 xr (ix4 b c h w) - ((rS xr b c / 12544 : ℝ) : EReal)))
      = ((∑ h : Fin 112, ∑ w : Fin 112, (xr (ix4 b c h w) - rS xr b c / 12544) * (xr (ix4 b c h w) - rS xr b c / 12544) : ℝ) : EReal) := by
    rw [coe_sum]; refine Finset.sum_congr rfl fun h _ => ?_
    rw [coe_sum]; exact Finset.sum_congr rfl fun w _ => by rw [EReal.coe_mul, EReal.coe_sub]
  rw [hsum, div_real _ _ (by norm_num)]

theorem rVarG_lift (c : Fin 64) : rVarG (lift4 xr) c = (rVG xr c : EReal) := by
  unfold rVarG rVG
  rw [muG_lift, Consts.nBHW_eq]
  have hsum : (∑ b : Fin 64, ∑ h : Fin 112, ∑ w : Fin 112, (lift4 xr (ix4 b c h w) - ((rSG xr c / 802816 : ℝ) : EReal))
        * (lift4 xr (ix4 b c h w) - ((rSG xr c / 802816 : ℝ) : EReal)))
      = ((∑ b : Fin 64, ∑ h : Fin 112, ∑ w : Fin 112,
          (xr (ix4 b c h w) - rSG xr c / 802816) * (xr (ix4 b c h w) - rSG xr c / 802816) : ℝ) : EReal) := by
    rw [coe_sum]; refine Finset.sum_congr rfl fun b _ => ?_
    rw [coe_sum]; refine Finset.sum_congr rfl fun h _ => ?_
    rw [coe_sum]; exact Finset.sum_congr rfl fun w _ => by rw [EReal.coe_mul, EReal.coe_sub]
  rw [hsum, div_real _ _ (by norm_num)]

/-- The kernel's plane variance is the reference's. -/
theorem kVarS_lift (b c : Fin 64) : kVarS (lift4 xr) b c = (rVS xr b c : EReal) := by
  unfold kVarS
  rw [sumSqS_lift, muS_lift, Consts.nHW_eq, div_real _ _ (by norm_num), ← EReal.coe_mul, ← EReal.coe_sub, ← EReal.coe_zero,
    ← coe_max]
  congr 1
  unfold rVS rS rQ
  rw [sum_plane, sum_plane (fun h w => xr (ix4 b c h w)), sum_plane (fun h w => (xr (ix4 b c h w) - _) * (xr (ix4 b c h w) - _))]
  exact max_one_pass (fun p : Fin 112 × Fin 112 => xr (ix4 b c p.1 p.2)) 12544 card_plane (by norm_num)

/-- The kernel's channel variance is the reference's. -/
theorem kVarG_lift (c : Fin 64) : kVarG (lift4 xr) c = (rVG xr c : EReal) := by
  unfold kVarG
  rw [sumSqG_lift, muG_lift, Consts.nBHW_eq, div_real _ _ (by norm_num), ← EReal.coe_mul, ← EReal.coe_sub, ← EReal.coe_zero,
    ← coe_max]
  congr 1
  unfold rVG rSG rQG
  rw [sum_channel, sum_channel (fun b h w => xr (ix4 b c h w)),
    sum_channel (fun b h w => (xr (ix4 b c h w) - _) * (xr (ix4 b c h w) - _))]
  exact max_one_pass (fun p : Fin 64 × Fin 112 × Fin 112 => xr (ix4 p.1 c p.2.1 p.2.2)) 802816 card_channel (by norm_num)

theorem kVarS_eq_rVarS (b c : Fin 64) : kVarS (lift4 xr) b c = rVarS (lift4 xr) b c := by
  rw [kVarS_lift, rVarS_lift]

theorem kVarG_eq_rVarG (c : Fin 64) : kVarG (lift4 xr) c = rVarG (lift4 xr) c := by
  rw [kVarG_lift, rVarG_lift]

/-! ## The reciprocal square roots agree and are reals -/

theorem kInvS_eq_rInvS (b c : Fin 64) : kInvS (lift4 xr) b c = rInvS (lift4 xr) b c := by
  unfold kInvS rInvS; rw [kVarS_eq_rVarS]

theorem kInvG_eq_rInvG (c : Fin 64) : kInvG (lift4 xr) c = rInvG (lift4 xr) c := by
  unfold kInvG rInvG; rw [kVarG_eq_rVarG]

theorem rInvS_real (b c : Fin 64) : ∃ r : ℝ, rInvS (lift4 xr) b c = (r : EReal) := by
  obtain ⟨e, he, hE⟩ := Consts.eps_eq
  refine ⟨(Real.sqrt (rVS xr b c + e))⁻¹, ?_⟩
  unfold rInvS
  rw [rVarS_lift, hE, ← EReal.coe_add]
  exact rsqrt_real _ (add_pos_of_nonneg_of_pos (rVS_nonneg xr b c) he)

theorem rInvG_real (c : Fin 64) : ∃ r : ℝ, rInvG (lift4 xr) c = (r : EReal) := by
  obtain ⟨e, he, hE⟩ := Consts.eps_eq
  refine ⟨(Real.sqrt (rVG xr c + e))⁻¹, ?_⟩
  unfold rInvG
  rw [rVarG_lift, hE, ← EReal.coe_add]
  exact rsqrt_real _ (add_pos_of_nonneg_of_pos (rVG_nonneg xr c) he)

end

/-! ## The fold -/

/-- Distributivity in ℝ: the kernel's one affine map is the reference's two normalizations, blended. -/
theorem affine_fold (x mg ms γ β g bg ig is : ℝ) :
    (x : EReal) * (((1 / 2 : ℝ) : EReal) * ((γ : EReal) * (ig : EReal)) + (((1 / 2 : ℝ) : EReal) * (is : EReal)) * (g : EReal))
        + (((1 / 2 : ℝ) : EReal) * ((β : EReal) - (mg : EReal) * ((γ : EReal) * (ig : EReal)))
            + ((1 / 2 : ℝ) : EReal) * ((bg : EReal) - ((ms : EReal) * (is : EReal)) * (g : EReal)))
      = ((1 / 2 : ℝ) : EReal) * (((x : EReal) - (mg : EReal)) * ((γ : EReal) * (ig : EReal)) + (β : EReal))
        + ((1 / 2 : ℝ) : EReal) * ((((x : EReal) - (ms : EReal)) * (is : EReal)) * (g : EReal) + (bg : EReal)) := by
  simp only [← EReal.coe_mul, ← EReal.coe_add, ← EReal.coe_sub]
  congr 1
  ring

/-- The kernel's result is the reference's, index by index, when every input is a real. -/
theorem kernelOut_eq_refOut (x : T4) (γ β : T1) (g bg : T2)
    (hx : ∀ i, ∃ r : ℝ, x i = (r : EReal)) (hγ : ∀ i, ∃ r : ℝ, γ i = (r : EReal)) (hβ : ∀ i, ∃ r : ℝ, β i = (r : EReal))
    (hg : ∀ i, ∃ r : ℝ, g i = (r : EReal)) (hbg : ∀ i, ∃ r : ℝ, bg i = (r : EReal))
    (b c : Fin 64) (h w : Fin 112) :
    kernelOut x γ β g bg b c h w = refOut x γ β g bg b c h w := by
  obtain ⟨xr, rfl⟩ : ∃ xr, x = lift4 xr := ⟨fun i => (hx i).choose, funext fun i => (hx i).choose_spec⟩
  obtain ⟨γr, hγr⟩ := hγ (ix1 c)
  obtain ⟨βr, hβr⟩ := hβ (ix1 c)
  obtain ⟨gr, hgr⟩ := hg (ix2 b c)
  obtain ⟨bgr, hbgr⟩ := hbg (ix2 b c)
  obtain ⟨is, his⟩ := rInvS_real xr b c
  obtain ⟨ig, hig⟩ := rInvG_real xr c
  unfold kernelOut refOut kA kB kScaleG
  rw [kInvS_eq_rInvS, kInvG_eq_rInvG, his, hig, muS_lift, muG_lift, hγr, hβr, hgr, hbgr, Consts.half_eq]
  exact affine_fold _ _ _ _ _ _ _ _ _

end Cert.Blend

end
-- ==== Proof.Finite.lean ====
/-
  Under the precondition every float input is a real.

  The precondition is the conjunction, over the five float arrays a, of "every |a_i| is below +∞" (an all-reduction by ∧
  of the comparisons |a_i| < +∞).  An extended real whose absolute value max(a, −a) is below +∞ is neither +∞ nor −∞.
-/
import proofs.«139731_j76192719831877_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Blend

open Idealize.ShloMosaic Idealize.ShloMosaic.ValueIdx Cert.Pre_finite_inputs

/-- The word 0x7F800000 is +∞. -/
theorem top_word : Ideal.ofBits .f32 0x7F800000#32 = (⊤ : EReal) := by
  simp [Ideal.ofBits, Ideal.ieee]

/-- An extended real with |a| < +∞ is a real. -/
theorem real_of_abs_lt_top (a : EReal) (h : Ideal.cmp .olt (max a (-a)) (Ideal.ofBits .f32 0x7F800000#32) = 1#1) :
    ∃ r : ℝ, a = (r : EReal) := by
  rw [top_word] at h
  induction a using EReal.rec with
  | bot => simp [Ideal.cmp] at h
  | coe r => exact ⟨r, rfl⟩
  | top => simp [Ideal.cmp] at h

instance : Subsingleton S_.Idx := ⟨fun a b => funext fun d => d.elim0⟩

/-- One conjunct: an all-reduction by ∧ of |a_i| < +∞ that came out true makes every a_i a real. -/
theorem reals_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ix0 = 1#1) (i : s.Idx) : ∃ r : ℝ, a i = (r : EReal) :=
  real_of_abs_lt_top (a i) (Host.reduce_andi_all _ _ hr hu ix0 e i)

/-- Under the precondition each of the five float arrays holds reals only. -/
theorem reals_of_pre [Cert.Pre_finite_inputs.Facts] (a0 : FVec Ideal S64x64x112x112 .f32) (a1 a2 : FVec Ideal S64 .f32)
    (a3 a4 : FVec Ideal S32x64 .f32) (a5 : IVec S64 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨reals_of_all a0 _ _ _ e0, reals_of_all a1 _ _ _ e1, reals_of_all a2 _ _ _ e2, reals_of_all a3 _ _ _ e3,
    reals_of_all a4 _ _ _ e4⟩

/-- A gather copies entries of its table: the rows it picks from a table of reals are reals. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

end Cert.Blend

end
-- ==== Proof.KernelRun.lean ====
/-
  The kernel program's run with its result named: at the compiled mesh, from any memory with zero counters, every weakly
  fair execution of @main terminates without a fault, and in every final state the result array main_v67 holds what the
  second region's write-backs leave (its proof data's last array, taken at the contents the region is entered with), while the
  six argument arrays hold what they were launched with.
-/
import proofs.«139731_j76192719831877_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array is the second region's window 3. -/
theorem arrRef1_3 : Pipeline.arrRef spec1 3 = main_v67 := rfl

set_option backward.isDefEq.respectTransparency.types false in
/-- The run, the result named: the launch over @main's five segments; the last thread state (every unscoped buffer at the
    last boundary's contents) read against the final state; the result array through the second region's exit contents to
    its proof data's last array, each argument array back through the fold to the launch memory. -/
theorem run_named : θ_run defs (onTc (τ := τ) (main (F := F))) ⟨m, fun _ => 0, ρ⟩ (fun r => ∀ c : Dev nD,
      r.2.mem ((c.tc : Thread nD τ).loc main_v67) = (Gen.dat1 (Gen.V4 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v67 (by decide))).trans (W5_arr m ρ c 3),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Named

end
-- ==== Proof.KernelRegion0.lean ====
/-
  The first region of the kernel program, read as two functions of the array it is entered with.

  The region walks the 64 samples of x : [64, 64, 112, 112] four at a time (16 grid points; point t holds samples 4t … 4t + 3).
  At each point its body loads the [4, 64, 112, 112] block, sums it over the width and then over the height, keeping both as
  unit axes, and stores the [4, 64, 1, 1] result; it does the same with the block's squares.  Every index of either result
  array lies in exactly the block of point (sample / 4), so after the last point the first array holds at (s, c, 0, 0) the sum
  over h of the sums over w of x (s, c, h, w), and the second the same sum of x (s, c, h, w)².
-/
import proofs.«139731_j76192719831877_2_alg».proof.Proof.Gen.KernelIdeal.Frame
import proofs.«139731_j76192719831877_2_alg».proof.Proof.Spec
import Idealize.ShloMosaic.Lib.Pipeline.Value
import Idealize.ShloMosaic.Lib.ValueIdx
import Idealize.ShloMosaic.Lib.Tactic

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- A cast that appends a unit axis to [4, 64, 1]. -/
theorem cast_col1 (y : S4x64x1.Idx → EReal) (hc : S4x64x1.ShapeCasts S4x64x1x1) (s : Fin 4) (ch : Fin 64) :
    shapeCast S4x64x1x1 y hc (ix4 s ch 0 0) = y (ix3 s ch 0) :=
  shapeCast_apply y hc (ix4 s ch 0 0) (ix3 s ch 0) (by
    rw [Shape.rowMajor_val_three, Shape.rowMajor_val_four]
    show ((s.val * 64 + ch.val) * 1 + 0) = (((s.val * 64 + ch.val) * 1 + 0) * 1 + 0)
    omega)

/-- A cast that appends a unit axis to [4, 64, 112]. -/
theorem cast_col2 (y : S4x64x112.Idx → EReal) (hc : S4x64x112.ShapeCasts S4x64x112x1) (s : Fin 4) (ch : Fin 64) (h : Fin 112) :
    shapeCast S4x64x112x1 y hc (ix4 s ch h 0) = y (ix3 s ch h) :=
  shapeCast_apply y hc (ix4 s ch h 0) (ix3 s ch h) (by
    rw [Shape.rowMajor_val_three, Shape.rowMajor_val_four]
    show ((s.val * 64 + ch.val) * 112 + h.val) = (((s.val * 64 + ch.val) * 112 + h.val) * 1 + 0)
    omega)

set_option backward.isDefEq.respectTransparency.types false in
/-- The sum over the last axis of a [4, 64, 112, 112] vector, at (s, c, h): the sum over the width. -/
theorem sum_w (y : FVec Ideal S4x64x112x112 .f32) (hr : S4x64x112x112.Reduces [3] S4x64x112) (hφ : FKind.Formats .f32)
    (hacc : (0x00000000#32 : BitVec 32) = 0x00000000#32) (s : Fin 4) (ch : Fin 64) (h : Fin 112) :
    multiReduction .add [3] S4x64x112 y 0x00000000#32 hr hφ hacc (ix3 s ch h) = ∑ w : Fin 112, y (ix4 s ch h w) := by
  refine (Ideal.multiReduction_add_single y 0x00000000#32 hr hφ hacc (ix3 s ch h)).trans ?_
  refine Finset.sum_congr rfl fun w _ => congrArg y ?_
  funext a; apply Fin.ext
  match a with | ⟨0, _⟩ => rfl | ⟨1, _⟩ => rfl | ⟨2, _⟩ => rfl | ⟨3, _⟩ => rfl

set_option backward.isDefEq.respectTransparency.types false in
/-- The sum over axis 2 of a [4, 64, 112, 1] vector, at (s, c, 0): the sum over the height. -/
theorem sum_h (y : FVec Ideal S4x64x112x1 .f32) (hr : S4x64x112x1.Reduces [2] S4x64x1) (hφ : FKind.Formats .f32)
    (hacc : (0x00000000#32 : BitVec 32) = 0x00000000#32) (s : Fin 4) (ch : Fin 64) :
    multiReduction .add [2] S4x64x1 y 0x00000000#32 hr hφ hacc (ix3 s ch 0) = ∑ h : Fin 112, y (ix4 s ch h 0) := by
  refine (Ideal.multiReduction_add_single y 0x00000000#32 hr hφ hacc (ix3 s ch 0)).trans ?_
  refine Finset.sum_congr rfl fun h _ => congrArg y ?_
  funext a; apply Fin.ext
  match a with | ⟨0, _⟩ => rfl | ⟨1, _⟩ => rfl | ⟨2, _⟩ => rfl | ⟨3, _⟩ => rfl

set_option backward.isDefEq.respectTransparency.types false in
/-- The first stored value at (s, c, 0, 0): the block summed over the width, then over the height. -/
theorem pay1_apply (v0 : Vec Ideal S4x64x112x112 .f32) (s : Fin 4) (ch : Fin 64) :
    k0_pay1 (F := Ideal) v0 (ix4 s ch 0 0) = ∑ h : Fin 112, ∑ w : Fin 112, v0 (ix4 s ch h w) := by
  unfold k0_pay1
  refine (cast_col1 _ _ s ch).trans ?_
  refine (sum_h _ _ _ _ s ch).trans ?_
  refine Finset.sum_congr rfl fun h _ => ?_
  refine (cast_col2 _ _ s ch h).trans ?_
  exact sum_w _ _ _ _ s ch h

set_option backward.isDefEq.respectTransparency.types false in
/-- The second stored value at (s, c, 0, 0): the block's squares summed over the width, then over the height. -/
theorem pay2_apply (v0 : Vec Ideal S4x64x112x112 .f32) (s : Fin 4) (ch : Fin 64) :
    k0_pay2 (F := Ideal) v0 (ix4 s ch 0 0) = ∑ h : Fin 112, ∑ w : Fin 112, v0 (ix4 s ch h w) * v0 (ix4 s ch h w) := by
  unfold k0_pay2
  refine (cast_col1 _ _ s ch).trans ?_
  refine (sum_h _ _ _ _ s ch).trans ?_
  refine Finset.sum_congr rfl fun h _ => ?_
  refine (cast_col2 _ _ s ch h).trans ?_
  exact sum_w _ _ _ _ s ch h

variable (V : (c : Dev nD) → (b : Ref sig .tc) → Buf (Elt Ideal) ((c : Thread nD τ).loc b))

/-- The zero offsets of a whole-buffer access, as a constant function. -/
theorem hz : (![0, 0, 0, 0] : Fin 4 → Nat) = fun _ => 0 := funext fun a => by fin_cases a <;> rfl

/-- The first stored value at any index of its [4, 64, 1, 1] block. -/
theorem pay1_apply' (v0 : Vec Ideal S4x64x112x112 .f32) (j : S4x64x1x1.Idx) :
    k0_pay1 (F := Ideal) v0 j = ∑ h : Fin 112, ∑ w : Fin 112, v0 (ix4 (j 0) (j 1) h w) := by
  obtain ⟨s, ch, z1, z2, rfl⟩ : ∃ (s : Fin 4) (ch : Fin 64) (z1 z2 : Fin 1), j = ix4 s ch z1 z2 := ⟨j 0, j 1, j 2, j 3, eq_ix4 j⟩
  obtain rfl : z1 = 0 := Subsingleton.elim _ _
  obtain rfl : z2 = 0 := Subsingleton.elim _ _
  exact pay1_apply v0 s ch

/-- The second stored value at any index of its [4, 64, 1, 1] block. -/
theorem pay2_apply' (v0 : Vec Ideal S4x64x112x112 .f32) (j : S4x64x1x1.Idx) :
    k0_pay2 (F := Ideal) v0 j = ∑ h : Fin 112, ∑ w : Fin 112, v0 (ix4 (j 0) (j 1) h w) * v0 (ix4 (j 0) (j 1) h w) := by
  obtain ⟨s, ch, z1, z2, rfl⟩ : ∃ (s : Fin 4) (ch : Fin 64) (z1 z2 : Fin 1), j = ix4 s ch z1 z2 := ⟨j 0, j 1, j 2, j 3, eq_ix4 j⟩
  obtain rfl : z1 = 0 := Subsingleton.elim _ _
  obtain rfl : z2 = 0 := Subsingleton.elim _ _
  exact pay2_apply v0 s ch

/-- The three windows' block indices at point t: t along the samples, 0 along the other three axes (decided over the 16 points). -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0) :=
  (by decide +kernel : ∀ t : Fin grid0.N, _)

/-- The array of plane sums of the array the region stages as window 0. -/
def G1 (c : Dev nD) : S64x64x1x1.Idx → EReal := fun i => Cert.Blend.sumS (V c main_arg0) (i 0) (i 1)
/-- The array of plane sums of squares of the same array. -/
def G2 (c : Dev nD) : S64x64x1x1.Idx → EReal := fun i => Cert.Blend.sumSqS (V c main_arg0) (i 0) (i 1)

/-- The input block at point t, at (s, c, h, w) of the block, is the array at (4t + s, c, h, w); stated against the array index
    under the matching index of an output block. -/
theorem read0 (c : Dev nD) (t : Fin cfg0.N) (j : S4x64x1x1.Idx) (h w : Fin 112) :
    (iblk0 V c 0 t : Vec Ideal S4x64x112x112 .f32) (ix4 (j 0) (j 1) h w)
      = (V c main_arg0 : S64x64x112x112.Idx → EReal)
          (ix4 ((((cfg0.win 1).blk t).view.emb j) 0) ((((cfg0.win 1).blk t).view.emb j) 1) h w) := by
  obtain ⟨⟨a0, a1, a2, a3⟩, ⟨b0, b1, b2, b3⟩, -⟩ := idx_facts t
  show (V c main_arg0 : S64x64x112x112.Idx → EReal) (((cfg0.win 0).blk t).view.emb (ix4 (j 0) (j 1) h w)) = _
  refine congrArg _ ?_
  funext a; apply Fin.ext
  match a with
  | ⟨0, _⟩ => show win0_0.index t (0 : Fin 4) * 4 + 1 * (j 0).val = win0_1.index t (0 : Fin 4) * 4 + 1 * (j 0).val; omega
  | ⟨1, _⟩ => show win0_0.index t (1 : Fin 4) * 64 + 1 * (j 1).val = win0_1.index t (1 : Fin 4) * 64 + 1 * (j 1).val; omega
  | ⟨2, _⟩ => show win0_0.index t (2 : Fin 4) * 112 + 1 * h.val = h.val; omega
  | ⟨3, _⟩ => show win0_0.index t (3 : Fin 4) * 112 + 1 * w.val = w.val; omega

/-- The two output windows have the same blocks. -/
theorem emb12 (t : Fin cfg0.N) (j : S4x64x1x1.Idx) : ((cfg0.win 2).blk t).view.emb j = ((cfg0.win 1).blk t).view.emb j := by
  obtain ⟨-, ⟨b0, b1, b2, b3⟩, ⟨c0, c1, c2, c3⟩⟩ := idx_facts t
  funext a; apply Fin.ext
  match a with
  | ⟨0, _⟩ => show win0_2.index t (0 : Fin 4) * 4 + 1 * (j 0).val = win0_1.index t (0 : Fin 4) * 4 + 1 * (j 0).val; omega
  | ⟨1, _⟩ => show win0_2.index t (1 : Fin 4) * 64 + 1 * (j 1).val = win0_1.index t (1 : Fin 4) * 64 + 1 * (j 1).val; omega
  | ⟨2, _⟩ => show win0_2.index t (2 : Fin 4) * 1 + 1 * (j 2).val = win0_1.index t (2 : Fin 4) * 1 + 1 * (j 2).val; omega
  | ⟨3, _⟩ => show win0_2.index t (3 : Fin 4) * 1 + 1 * (j 3).val = win0_1.index t (3 : Fin 4) * 1 + 1 * (j 3).val; omega

/-- At point t and block index j the first stored value is the plane sum at the array index under j. -/
theorem point1_eq (c : Dev nD) (t : Fin cfg0.N) (j : S4x64x1x1.Idx) :
    k0_pay1 (F := Ideal) (iblk0 V c 0 t) j = G1 V c (((cfg0.win 1).blk t).view.emb j) := by
  refine (pay1_apply' (iblk0 V c 0 t) j).trans ?_
  unfold G1 Cert.Blend.sumS
  exact Finset.sum_congr rfl fun h _ => Finset.sum_congr rfl fun w _ => read0 V c t j h w

/-- At point t and block index j the second stored value is the plane sum of squares at the array index under j. -/
theorem point2_eq (c : Dev nD) (t : Fin cfg0.N) (j : S4x64x1x1.Idx) :
    k0_pay2 (F := Ideal) (iblk0 V c 0 t) j = G2 V c (((cfg0.win 2).blk t).view.emb j) := by
  refine (pay2_apply' (iblk0 V c 0 t) j).trans ?_
  rw [emb12]
  unfold G2 Cert.Blend.sumSqS
  refine Finset.sum_congr rfl fun h _ => Finset.sum_congr rfl fun w _ => ?_
  rw [read0 V c t j h w]

/-- What point t writes back to the first result array is block t of the plane sums. -/
theorem flushed1_eq (c : Dev nD) (t : Fin cfg0.N) :
    (dat0 V c).flushed 1 t = ((cfg0.win 1).blk t).view.read (Elt Ideal) (G1 V c) := by
  show (cfg0.win 1).cut (grid0.coords t) ((dat0 V c).after 1 t) = _
  rw [after0_1]
  unfold out0_1
  rw [View.canon_unit_zero hz]
  simp only [View.ld_unit_zero (S := S4x64x112x112) hz]
  funext j
  exact point1_eq V c t j

/-- What point t writes back to the second result array is block t of the plane sums of squares. -/
theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  unfold out0_2
  rw [View.canon_unit_zero hz]
  simp only [View.ld_unit_zero (S := S4x64x112x112) hz]
  funext j
  exact point2_eq V c t j

/-- An index of either output array is in point `t`'s block iff each coordinate is in the block's range on its axis. -/
theorem mem_blk1 (t : Fin cfg0.N) (i : S64x64x1x1.Idx) :
    i ∈ ((cfg0.win 1).blk t).view.set ↔ ∀ a : Fin 4, win0_1.index t a * S4x64x1x1.size a ≤ (i a).val ∧ (i a).val < win0_1.index t a * S4x64x1x1.size a + S4x64x1x1.size a := by
  show i ∈ ((View.whole main_v0_0).slice (win0_1.rect t)).set ↔ _
  rw [View.set_slice_whole, Rect.mem_set_unit]
  exact Iff.rfl

theorem mem_blk2 (t : Fin cfg0.N) (i : S64x64x1x1.Idx) :
    i ∈ ((cfg0.win 2).blk t).view.set ↔ ∀ a : Fin 4, win0_2.index t a * S4x64x1x1.size a ≤ (i a).val ∧ (i a).val < win0_2.index t a * S4x64x1x1.size a + S4x64x1x1.size a := by
  show i ∈ ((View.whole main_v0_1).slice (win0_2.rect t)).set ↔ _
  rw [View.set_slice_whole, Rect.mem_set_unit]
  exact Iff.rfl

/-- Every index is in the block of the point that holds its four samples: sample s lies in block s / 4. -/
theorem cover1 (i : S64x64x1x1.Idx) :
    ∃ t : Fin cfg0.N, (cfg0.win 1).flush t = true ∧ i ∈ ((cfg0.win 1).blk t).view.set := by
  have hN : cfg0.N = 16 := N_0
  have hi0 : (i 0).val < 64 := (i 0).isLt
  have hi1 : (i 1).val < 64 := (i 1).isLt
  have hi2 : (i 2).val < 1 := (i 2).isLt
  have hi3 : (i 3).val < 1 := (i 3).isLt
  let t : Fin cfg0.N := ⟨(i 0).val / 4, by rw [hN]; omega⟩
  have ht : t.val = (i 0).val / 4 := rfl
  obtain ⟨-, ⟨d0, d1, d2, d3⟩, -⟩ := idx_facts t
  refine ⟨t, flush0_1 t, ?_⟩
  rw [mem_blk1]
  intro a
  match a with
  | ⟨0, _⟩ => show win0_1.index t (0 : Fin 4) * 4 ≤ (i 0).val ∧ (i 0).val < win0_1.index t (0 : Fin 4) * 4 + 4; omega
  | ⟨1, _⟩ => show win0_1.index t (1 : Fin 4) * 64 ≤ (i 1).val ∧ (i 1).val < win0_1.index t (1 : Fin 4) * 64 + 64; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

theorem cover2 (i : S64x64x1x1.Idx) :
    ∃ t : Fin cfg0.N, (cfg0.win 2).flush t = true ∧ i ∈ ((cfg0.win 2).blk t).view.set := by
  have hN : cfg0.N = 16 := N_0
  have hi0 : (i 0).val < 64 := (i 0).isLt
  have hi1 : (i 1).val < 64 := (i 1).isLt
  have hi2 : (i 2).val < 1 := (i 2).isLt
  have hi3 : (i 3).val < 1 := (i 3).isLt
  let t : Fin cfg0.N := ⟨(i 0).val / 4, by rw [hN]; omega⟩
  have ht : t.val = (i 0).val / 4 := rfl
  obtain ⟨-, -, ⟨d0, d1, d2, d3⟩⟩ := idx_facts t
  refine ⟨t, flush0_2 t, ?_⟩
  rw [mem_blk2]
  intro a
  match a with
  | ⟨0, _⟩ => show win0_2.index t (0 : Fin 4) * 4 ≤ (i 0).val ∧ (i 0).val < win0_2.index t (0 : Fin 4) * 4 + 4; omega
  | ⟨1, _⟩ => show win0_2.index t (1 : Fin 4) * 64 ≤ (i 1).val ∧ (i 1).val < win0_2.index t (1 : Fin 4) * 64 + 64; omega
  | ⟨2, _⟩ => show win0_2.index t (2 : Fin 4) * 1 ≤ (i 2).val ∧ (i 2).val < win0_2.index t (2 : Fin 4) * 1 + 1; omega
  | ⟨3, _⟩ => show win0_2.index t (3 : Fin 4) * 1 ≤ (i 3).val ∧ (i 3).val < win0_2.index t (3 : Fin 4) * 1 + 1; omega

/-- The two output arrays after the region: the plane sums and the plane sums of squares. -/
theorem arr1_eq (c : Dev nD) : (dat0 V c).arrAt 1 cfg0.N = G1 V c :=
  (dat0 V c).arrAt_eq_of_cover 1 (G1 V c) (fun t _ => flushed1_eq V c t) cover1

theorem arr2_eq (c : Dev nD) : (dat0 V c).arrAt 2 cfg0.N = G2 V c :=
  (dat0 V c).arrAt_eq_of_cover 2 (G2 V c) (fun t _ => flushed2_eq V c t) cover2

/-- The plane sums, entry by entry. -/
theorem arr1 (c : Dev nD) (b c' : Fin 64) :
    (Gen.dat0 V c).arrAt 1 cfg0.N (ValueIdx.ix4 b c' 0 0) = Cert.Blend.sumS (V c main_arg0) b c' :=
  congrFun (arr1_eq V c) (ix4 b c' 0 0)

/-- The plane sums of squares, entry by entry. -/
theorem arr2 (c : Dev nD) (b c' : Fin 64) :
    (Gen.dat0 V c).arrAt 2 cfg0.N (ValueIdx.ix4 b c' 0 0) = Cert.Blend.sumSqS (V c main_arg0) b c' :=
  congrFun (arr2_eq V c) (ix4 b c' 0 0)

end Cert.KernelIdeal.Region0

end
-- ==== Proof.KernelRegion1.lean ====
/-
  The second region of the kernel program, read as one function of the arrays it is entered with.

  The region walks the 64 samples of x : [64, 64, 112, 112] two at a time (32 grid points; point t holds samples 2t and 2t + 1).
  At each point its body loads the block of x and the matching [2, 64, 1, 1] blocks of the slope array and of the offset array,
  spreads each slope and offset over its 112 × 112 plane, and stores x · slope + offset.  Every index of the result lies in
  exactly the block of point (sample / 2), so after the last point the result array holds, at (s, c, h, w),
  x (s, c, h, w) · slope (s, c, 0, 0) + offset (s, c, 0, 0).
-/
import proofs.«139731_j76192719831877_2_alg».proof.Proof.Gen.KernelIdeal.Frame
import proofs.«139731_j76192719831877_2_alg».proof.Proof.Spec
import Idealize.ShloMosaic.Lib.Pipeline.Value
import Idealize.ShloMosaic.Lib.ValueIdx
import Idealize.ShloMosaic.Lib.Tactic

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, as a constant function. -/
theorem hz : (![0, 0, 0, 0] : Fin 4 → Nat) = fun _ => 0 := funext fun a => by fin_cases a <;> rfl

/-- The body's stored value at (s, c, h, w) of the block: the block of x there, times the slope block at (s, c, 0, 0),
    plus the offset block at (s, c, 0, 0): the two shape casts are identities and each broadcast reads the plane's one entry. -/
theorem pay_apply (x0 : Vec Ideal S2x64x112x112 .f32) (x1 x2 : Vec Ideal S2x64x1x1 .f32)
    (s : Fin 2) (ch : Fin 64) (h w : Fin 112) :
    k1_pay1 (F := Ideal) x0 x1 x2 (ix4 s ch h w) = x0 (ix4 s ch h w) * x1 (ix4 s ch 0 0) + x2 (ix4 s ch 0 0) := by
  unfold k1_pay1
  rw [shapeCast_self, shapeCast_self]
  rw [addf_apply, mulf_apply]
  rw [broadcastTo_apply x1 _ (ix4 s ch h w) (ix4 s ch 0 0) (fun a => by
        match a with | ⟨0, _⟩ => rfl | ⟨1, _⟩ => rfl | ⟨2, _⟩ => rfl | ⟨3, _⟩ => rfl),
      broadcastTo_apply x2 _ (ix4 s ch h w) (ix4 s ch 0 0) (fun a => by
        match a with | ⟨0, _⟩ => rfl | ⟨1, _⟩ => rfl | ⟨2, _⟩ => rfl | ⟨3, _⟩ => rfl)]

/-- The four windows' block indices at point t: t along the samples, 0 along the other three axes (decided over the 32 points). -/
theorem idx_facts : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ (win1_2.index t (0 : Fin 4) = t.val ∧ win1_2.index t (1 : Fin 4) = 0 ∧ win1_2.index t (2 : Fin 4) = 0 ∧ win1_2.index t (3 : Fin 4) = 0)
    ∧ (win1_3.index t (0 : Fin 4) = t.val ∧ win1_3.index t (1 : Fin 4) = 0 ∧ win1_3.index t (2 : Fin 4) = 0 ∧ win1_3.index t (3 : Fin 4) = 0) :=
  (by decide +kernel : ∀ t : Fin grid1.N, _)

variable (V : (c : Dev nD) → (b : Ref sig .tc) → Buf (Elt Ideal) ((c : Thread nD τ).loc b))

/-- The payload at any index of the block. -/
theorem pay_apply' (x0 : Vec Ideal S2x64x112x112 .f32) (x1 x2 : Vec Ideal S2x64x1x1 .f32) (j : S2x64x112x112.Idx) :
    k1_pay1 (F := Ideal) x0 x1 x2 j = x0 j * x1 (ix4 (j 0) (j 1) 0 0) + x2 (ix4 (j 0) (j 1) 0 0) := by
  obtain ⟨s, ch, h, w, rfl⟩ : ∃ (s : Fin 2) (ch : Fin 64) (h w : Fin 112), j = ix4 s ch h w := ⟨j 0, j 1, j 2, j 3, eq_ix4 j⟩
  exact pay_apply x0 x1 x2 s ch h w

/-- An array scaled and shifted plane by plane: entry (s, c, h, w) of x times entry (s, c) of a, plus entry (s, c) of b. -/
def affine (x : S64x64x112x112.Idx → EReal) (a b : S64x64x1x1.Idx → EReal) : S64x64x112x112.Idx → EReal :=
  fun i => x i * a (ix4 (i 0) (i 1) 0 0) + b (ix4 (i 0) (i 1) 0 0)

/-- The same at coordinates. -/
def affineAt (x : S64x64x112x112.Idx → EReal) (a b : S64x64x1x1.Idx → EReal) (s ch : Fin 64) (h w : Fin 112) : EReal :=
  x (ix4 s ch h w) * a (ix4 s ch 0 0) + b (ix4 s ch 0 0)

/-- The two spellings agree at an index given by its coordinates. -/
theorem affine_ix4 (x : S64x64x112x112.Idx → EReal) (a b : S64x64x1x1.Idx → EReal) (s ch : Fin 64) (h w : Fin 112) :
    affine x a b (ix4 s ch h w) = affineAt x a b s ch h w := rfl

/-- The result array as one function of the three arrays the region stages. -/
def G (c : Dev nD) : S64x64x112x112.Idx → EReal := affine (V c main_arg0) (V c main_v65) (V c main_v66)

/-- At point t and block index j the stored value is the function G at the array index under j: each of the three input
    blocks is read at the array index the result's block names (block index × block size + the coordinate inside the block). -/
theorem point_eq (c : Dev nD) (t : Fin cfg1.N) (j : S2x64x112x112.Idx) :
    k1_pay1 (F := Ideal) (iblk1 V c 0 t) (iblk1 V c 1 t) (iblk1 V c 2 t) j = G V c (((cfg1.win 3).blk t).view.emb j) := by
  obtain ⟨⟨a0, a1, a2, a3⟩, ⟨b0, b1, b2, b3⟩, ⟨c0, c1, c2, c3⟩, ⟨d0, d1, d2, d3⟩⟩ := idx_facts t
  refine (pay_apply' (iblk1 V c 0 t) (iblk1 V c 1 t) (iblk1 V c 2 t) j).trans ?_
  have h0 : ((cfg1.win 0).blk t).view.emb j = ((cfg1.win 3).blk t).view.emb j := by
    funext a; apply Fin.ext
    match a with
    | ⟨0, _⟩ => show win1_0.index t (0 : Fin 4) * 2 + 1 * (j 0).val = win1_3.index t (0 : Fin 4) * 2 + 1 * (j 0).val; omega
    | ⟨1, _⟩ => show win1_0.index t (1 : Fin 4) * 64 + 1 * (j 1).val = win1_3.index t (1 : Fin 4) * 64 + 1 * (j 1).val; omega
    | ⟨2, _⟩ => show win1_0.index t (2 : Fin 4) * 112 + 1 * (j 2).val = win1_3.index t (2 : Fin 4) * 112 + 1 * (j 2).val; omega
    | ⟨3, _⟩ => show win1_0.index t (3 : Fin 4) * 112 + 1 * (j 3).val = win1_3.index t (3 : Fin 4) * 112 + 1 * (j 3).val; omega
  have h1 : ((cfg1.win 1).blk t).view.emb (ix4 (j 0) (j 1) 0 0)
      = (ix4 ((((cfg1.win 3).blk t).view.emb j) 0) ((((cfg1.win 3).blk t).view.emb j) 1) 0 0 : S64x64x1x1.Idx) := by
    funext a; apply Fin.ext
    match a with
    | ⟨0, _⟩ => show win1_1.index t (0 : Fin 4) * 2 + 1 * (j 0).val = win1_3.index t (0 : Fin 4) * 2 + 1 * (j 0).val; omega
    | ⟨1, _⟩ => show win1_1.index t (1 : Fin 4) * 64 + 1 * (j 1).val = win1_3.index t (1 : Fin 4) * 64 + 1 * (j 1).val; omega
    | ⟨2, _⟩ => show win1_1.index t (2 : Fin 4) * 1 + 1 * 0 = 0; omega
    | ⟨3, _⟩ => show win1_1.index t (3 : Fin 4) * 1 + 1 * 0 = 0; omega
  have h2 : ((cfg1.win 2).blk t).view.emb (ix4 (j 0) (j 1) 0 0)
      = (ix4 ((((cfg1.win 3).blk t).view.emb j) 0) ((((cfg1.win 3).blk t).view.emb j) 1) 0 0 : S64x64x1x1.Idx) := by
    funext a; apply Fin.ext
    match a with
    | ⟨0, _⟩ => show win1_2.index t (0 : Fin 4) * 2 + 1 * (j 0).val = win1_3.index t (0 : Fin 4) * 2 + 1 * (j 0).val; omega
    | ⟨1, _⟩ => show win1_2.index t (1 : Fin 4) * 64 + 1 * (j 1).val = win1_3.index t (1 : Fin 4) * 64 + 1 * (j 1).val; omega
    | ⟨2, _⟩ => show win1_2.index t (2 : Fin 4) * 1 + 1 * 0 = 0; omega
    | ⟨3, _⟩ => show win1_2.index t (3 : Fin 4) * 1 + 1 * 0 = 0; omega
  have r0 : (iblk1 V c 0 t : Vec Ideal S2x64x112x112 .f32) j
      = (V c main_arg0 : S64x64x112x112.Idx → EReal) (((cfg1.win 3).blk t).view.emb j) := by
    show (V c main_arg0 : S64x64x112x112.Idx → EReal) (((cfg1.win 0).blk t).view.emb j) = _
    rw [h0]
  have r1 : (iblk1 V c 1 t : Vec Ideal S2x64x1x1 .f32) (ix4 (j 0) (j 1) 0 0)
      = (V c main_v65 : S64x64x1x1.Idx → EReal) (ix4 ((((cfg1.win 3).blk t).view.emb j) 0) ((((cfg1.win 3).blk t).view.emb j) 1) 0 0) := by
    show (V c main_v65 : S64x64x1x1.Idx → EReal) (((cfg1.win 1).blk t).view.emb (ix4 (j 0) (j 1) 0 0)) = _
    rw [h1]
  have r2 : (iblk1 V c 2 t : Vec Ideal S2x64x1x1 .f32) (ix4 (j 0) (j 1) 0 0)
      = (V c main_v66 : S64x64x1x1.Idx → EReal) (ix4 ((((cfg1.win 3).blk t).view.emb j) 0) ((((cfg1.win 3).blk t).view.emb j) 1) 0 0) := by
    show (V c main_v66 : S64x64x1x1.Idx → EReal) (((cfg1.win 2).blk t).view.emb (ix4 (j 0) (j 1) 0 0)) = _
    rw [h2]
  rw [r0, r1, r2]
  rfl

/-- What point t writes back to the result array is block t of G. -/
theorem flushed3_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S2x64x112x112) hz, View.ld_unit_zero (S := S2x64x1x1) hz]
  funext j
  exact point_eq V c t j

/-- An index of the array is in point `t`'s block iff each coordinate is in the block's range on its axis. -/
theorem mem_blk3 (t : Fin cfg1.N) (i : S64x64x112x112.Idx) :
    i ∈ ((cfg1.win 3).blk t).view.set ↔ ∀ a : Fin 4, win1_3.index t a * S2x64x112x112.size a ≤ (i a).val ∧ (i a).val < win1_3.index t a * S2x64x112x112.size a + S2x64x112x112.size a := by
  show i ∈ ((View.whole main_v67).slice (win1_3.rect t)).set ↔ _
  rw [View.set_slice_whole, Rect.mem_set_unit]
  exact Iff.rfl

/-- Every index is in the block of the point that holds its pair of samples: sample s lies in block s / 2. -/
theorem cover3 (i : S64x64x112x112.Idx) :
    ∃ t : Fin cfg1.N, (cfg1.win 3).flush t = true ∧ i ∈ ((cfg1.win 3).blk t).view.set := by
  have hN : cfg1.N = 32 := N_1
  have hi0 : (i 0).val < 64 := (i 0).isLt
  have hi1 : (i 1).val < 64 := (i 1).isLt
  have hi2 : (i 2).val < 112 := (i 2).isLt
  have hi3 : (i 3).val < 112 := (i 3).isLt
  let t : Fin cfg1.N := ⟨(i 0).val / 2, by rw [hN]; omega⟩
  have ht : t.val = (i 0).val / 2 := rfl
  obtain ⟨-, -, -, ⟨d0, d1, d2, d3⟩⟩ := idx_facts t
  refine ⟨t, flush1_3 t, ?_⟩
  rw [mem_blk3]
  intro a
  match a with
  | ⟨0, _⟩ => show win1_3.index t (0 : Fin 4) * 2 ≤ (i 0).val ∧ (i 0).val < win1_3.index t (0 : Fin 4) * 2 + 2; omega
  | ⟨1, _⟩ => show win1_3.index t (1 : Fin 4) * 64 ≤ (i 1).val ∧ (i 1).val < win1_3.index t (1 : Fin 4) * 64 + 64; omega
  | ⟨2, _⟩ => show win1_3.index t (2 : Fin 4) * 112 ≤ (i 2).val ∧ (i 2).val < win1_3.index t (2 : Fin 4) * 112 + 112; omega
  | ⟨3, _⟩ => show win1_3.index t (3 : Fin 4) * 112 ≤ (i 3).val ∧ (i 3).val < win1_3.index t (3 : Fin 4) * 112 + 112; omega

/-- The result array after the region: x scaled and shifted plane by plane. -/
theorem arr3_eq (c : Dev nD) : (dat1 V c).arrAt 3 cfg1.N = G V c :=
  (dat1 V c).arrAt_eq_of_cover 3 (G V c) (fun t _ => flushed3_eq V c t) cover3

/-- The result array after the region, entry by entry. -/
theorem arr3 (c : Dev nD) (b c' : Fin 64) (h w : Fin 112) :
    (Gen.dat1 V c).arrAt 3 cfg1.N (ValueIdx.ix4 b c' h w)
      = affineAt (V c main_arg0) (V c main_v65) (V c main_v66) b c' h w :=
  (congrFun (arr3_eq V c) (ix4 b c' h w)).trans (affine_ix4 _ _ _ b c' h w)

end Cert.KernelIdeal.Region1

end
-- ==== Proof.KernelGlue.lean ====
/-
  Between the kernel's two regions: from the plane sums to the slope and offset tables.

  The first region leaves, for every plane (sample b, channel c) of x : [64, 64, 112, 112], the sum of the plane and the sum of its
  squares, as two [64, 64, 1, 1] tables. About a hundred host operations turn them into the two [64, 64, 1, 1] tables the second
  region multiplies by and adds: per plane the mean s / 12544, the variance E[x²] − E[x]² cut off below at 0, and
  1 / sqrt(variance + 1e-5); per channel the same from the sums down the batch axis, over 802816 entries, times γ; the rows of the
  two [32, 64] tables picked per sample by label mod 32 (a floored remainder, then a gather); and the blend with weight 1/2 each.

  Three layers. (1) Each of the three stretches of host operations is a function of the contents it starts from: what it leaves
  in a buffer is a composition of array operations applied to the buffers it reads, and a buffer it does not write is unchanged.
  (2) Those array operations read at an index: a reshape between [64, 64] and [64, 64, 1, 1] keeps the row-major position; a scalar
  laid over a table reads the scalar; a [64] vector laid along rows reads the channel's entry; the host's sum down axis 0 is the
  sum over the 64 samples from +0.0 = 0; quotient, inverse root, maximum, product, sum and difference act entry by entry.
  (3) Entry by entry the stages are the specification's formulas (module Spec), once the first region's two tables hold the
  plane sums. The integer chain that picks the rows is carried as one term (`rows`) and never opened.
-/
import proofs.«139731_j76192719831877_2_alg».proof.Proof.Gen.KernelIdeal.Frame
import proofs.«139731_j76192719831877_2_alg».proof.Proof.Spec
import Idealize.ShloMosaic.Lib.IdealHost
import Idealize.ShloMosaic.Lib.KernelVsHost

noncomputable section

namespace Cert.KernelIdeal.Glue

open Idealize.ShloMosaic Idealize.ShloMosaic.TcCoe Idealize.ShloMosaic.ValueIdx
open Idealize.SL.Sem
open Cert.KernelIdeal Cert.KernelIdeal.Facts₀ Cert.KernelIdeal.Facts

/-- The arrays of the host stretch between the two regions: a [64, 64] table per (sample, channel), a [64] vector per channel,
    a [64, 64, 1, 1] table as the second region takes it, the label vector. -/
abbrev A2 : Type := FVec Ideal S64x64 .f32
abbrev A1 : Type := FVec Ideal S64 .f32
abbrev A4 : Type := FVec Ideal S64x64x1x1 .f32
abbrev Lab : Type := IVec S64 32

/-- A float word laid over a [64, 64] table, a [64] vector, a [1, 64] row. -/
def cst2 (w : BitVec 32) : A2 := broadcastInDim S64x64 ![] Gen.bcast_S_S64x64 (constant (F := Ideal) S_ .f32 w)
def cst1 (w : BitVec 32) : A1 := broadcastInDim S64 ![] Gen.bcast_S_S64 (constant (F := Ideal) S_ .f32 w)
def cstRow (w : BitVec 32) : FVec Ideal S1x64 .f32 := broadcastInDim S1x64 ![] Gen.bcast_S_S1x64 (constant (F := Ideal) S_ .f32 w)
/-- An integer word laid over the [64] label vector. -/
def cstI (w : BitVec 32) : Lab := broadcastInDim S64 ![] Gen.bcast_S_S64 (constantI S_ 32 w)
/-- A [64] vector as a [1, 64] row, and a [1, 64] row repeated down 64 rows. -/
def asRow (v : A1) : FVec Ideal S1x64 .f32 := broadcastInDim S1x64 ![1] Gen.bcast_S64_S1x64_1 v
def downRows (r : FVec Ideal S1x64 .f32) : A2 := broadcastInDim S64x64 ![0, 1] Gen.bcast_S1x64_S64x64_0_1 r
/-- A [64, 64] table as the [64, 64, 1, 1] table of the same entries. -/
def to4 (t : A2) : A4 := fun i => shapeCast S64x64x1x1 t Gen.shapeCasts_S64x64_S64x64x1x1 i

/-- The rows of a [32, 64] table picked per sample by a remainder r in (-32, 32): row r, or r + 32 when r is negative. -/
def pick (tbl : FVec Ideal S32x64 .f32) (r : Lab) : A2 :=
  Host.gather gather_S32x64_S64x1_S64x64_1_0_n_n_0_1_164 tbl
    (broadcastInDim S64x1 ![0] Gen.bcast_S64_S64x1_0 (select (cmpi .slt r (cstI 0#32)) (addi r (cstI 32#32)) r))

/-- The slope table: half the channel scale, plus half the per-plane inverse deviation times the picked scale row. -/
def slope (inv : A2) (scale : A1) (g : A2) : A4 :=
  to4 (addf (downRows (mulf (cstRow 0x3F000000#32) (asRow scale))) (mulf (mulf (cst2 0x3F000000#32) inv) g))
/-- The offset table: half of (channel shift less channel mean times channel scale), plus half of
    (picked shift row less per-plane mean times inverse deviation times picked scale row). -/
def offset (mu inv : A2) (muG scale β : A1) (g bg : A2) : A4 :=
  to4 (addf (downRows (mulf (cstRow 0x3F000000#32) (subf (asRow β) (mulf (asRow muG) (asRow scale)))))
        (mulf (cst2 0x3F000000#32) (subf bg (mulf (mulf mu inv) g))))

/-- A [64, 64, 1, 1] table as the [64, 64] table of the same entries. -/
def to2 (t : A4) : A2 := fun i => shapeCast S64x64 t Gen.shapeCasts_S64x64x1x1_S64x64 i

/-- Per plane (sample, channel), from the plane sums s1 and sums of squares s2 over 112·112 = 12544 entries:
    the mean, the variance E[x²] − E[x]² cut off below at 0, and 1/sqrt(variance + 1e-5). -/
def planeMean (s1 : A2) : A2 := Host.divf s1 (cst2 0x46440000#32)
def planeVar (s1 s2 : A2) : A2 :=
  maximumf (subf (Host.divf s2 (cst2 0x46440000#32)) (mulf (planeMean s1) (planeMean s1))) (cst2 0x00000000#32)
def planeInv (s1 s2 : A2) : A2 := Host.rsqrt (addf (planeVar s1 s2) (cst2 0x3727C5AC#32))
/-- The sum down the batch axis of a [64, 64] table, from +0.0. -/
def batchSum (s : A2) : A1 :=
  Host.reduceAdd s (constant (F := Ideal) S_ .f32 0x00000000#32) Gen.reducesTo_S64x64_S64_d0 Gen.h_S_
/-- Per channel, over 64·112·112 = 802816 entries: the mean, the cut-off variance, its inverse root, and γ times it. -/
def chanMean (s1 : A2) : A1 := Host.divf (batchSum s1) (cst1 0x49440000#32)
def chanVar (s1 s2 : A2) : A1 :=
  maximumf (subf (Host.divf (batchSum s2) (cst1 0x49440000#32)) (mulf (chanMean s1) (chanMean s1))) (cst1 0x00000000#32)
def chanInv (s1 s2 : A2) : A1 := Host.rsqrt (addf (chanVar s1 s2) (cst1 0x3727C5AC#32))
def chanScale (s1 s2 : A2) (γ : A1) : A1 := mulf γ (chanInv s1 s2)

/-- The divisor the floored remainder really divides by: n, or 1 when n is 0. -/
def remDiv (n : IVec S_ 32) : IVec S_ 32 := select (cmpi .eq n (constantI S_ 32 0#32)) (constantI S_ 32 1#32) n
/-- The truncated remainder of each label by that divisor. -/
def remRaw (lab : Lab) (n : IVec S_ 32) : Lab := Host.remsi lab (broadcastInDim S64 ![] Gen.bcast_S_S64 (remDiv n))
/-- The floored remainder of each label by n (the one with the divisor's sign): the truncated remainder, moved by the divisor
    where it is nonzero and its sign is not the divisor's. -/
def rem32 (lab : Lab) (n : IVec S_ 32) : Lab :=
  select
    (andi (cmpi .ne (cmpi .slt (remRaw lab n) (cstI 0#32))
                    (broadcastInDim S64 ![] Gen.bcast_S_S64 (cmpi .slt (remDiv n) (constantI S_ 32 0#32))))
          (cmpi .ne (remRaw lab n) (cstI 0#32)))
    (addi (remRaw lab n) (broadcastInDim S64 ![] Gen.bcast_S_S64 (remDiv n)))
    (remRaw lab n)

/-- A stretch of host operations leaves a buffer none of them writes as it found it. -/
macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Each stretch of host operations, over any contents it starts from -/

set_option maxHeartbeats 1000000 in
theorem last_v65 (X : Valuation τ sig (Elt Ideal)) :
    StableHlo.after (Gen.hostOps1_2 (F := Ideal)) X (Proc.devRef .tc main_v65)
      = slope (X (Proc.devRef .tc main_v13)) (X (Proc.devRef .tc main_v27))
          (pick (X (Proc.devRef .tc main_arg3)) (X (Proc.devRef .tc main_v28))) := by
  generalize hY : slope (X (Proc.devRef .tc main_v13)) (X (Proc.devRef .tc main_v27))
          (pick (X (Proc.devRef .tc main_arg3)) (X (Proc.devRef .tc main_v28))) = Y
  after_results_simp
  rw [← hY]
  unfold slope to4 pick cstI cst2 cstRow asRow downRows
  rfl

set_option maxHeartbeats 1000000 in
theorem last_v66 (X : Valuation τ sig (Elt Ideal)) :
    StableHlo.after (Gen.hostOps1_2 (F := Ideal)) X (Proc.devRef .tc main_v66)
      = offset (X (Proc.devRef .tc main_v4)) (X (Proc.devRef .tc main_v13)) (X (Proc.devRef .tc main_v16))
          (X (Proc.devRef .tc main_v27)) (X (Proc.devRef .tc main_arg2))
          (pick (X (Proc.devRef .tc main_arg3)) (X (Proc.devRef .tc main_v28)))
          (pick (X (Proc.devRef .tc main_arg4)) (X (Proc.devRef .tc main_v28))) := by
  generalize hY : offset (X (Proc.devRef .tc main_v4)) (X (Proc.devRef .tc main_v13)) (X (Proc.devRef .tc main_v16))
          (X (Proc.devRef .tc main_v27)) (X (Proc.devRef .tc main_arg2))
          (pick (X (Proc.devRef .tc main_arg3)) (X (Proc.devRef .tc main_v28)))
          (pick (X (Proc.devRef .tc main_arg4)) (X (Proc.devRef .tc main_v28))) = Y
  after_results_simp
  rw [← hY]
  unfold offset to4 pick cstI cst2 cstRow asRow downRows
  rfl

set_option maxHeartbeats 1000000 in
theorem mid_v28 (X : Valuation τ sig (Elt Ideal)) :
    StableHlo.after (Gen.hostOps1_1 (F := Ideal)) X (Proc.devRef .tc main_v28)
      = rem32 (X (Proc.devRef .tc main_arg5)) (X (Proc.devRef .tc main_c)) := by
  generalize hY : rem32 (X (Proc.devRef .tc main_arg5)) (X (Proc.devRef .tc main_c)) = Y
  after_results_simp
  rw [← hY]
  unfold rem32 remRaw remDiv cstI
  rfl

theorem first_v4 (X : Valuation τ sig (Elt Ideal)) :
    StableHlo.after (Gen.hostOps1 (F := Ideal)) X (Proc.devRef .tc main_v4)
      = planeMean (to2 (X (Proc.devRef .tc main_v0_0))) := by
  generalize hY : planeMean (to2 (X (Proc.devRef .tc main_v0_0))) = Y
  after_results_simp
  rw [← hY]
  unfold planeMean to2 cst2
  rfl

theorem first_v13 (X : Valuation τ sig (Elt Ideal)) :
    StableHlo.after (Gen.hostOps1 (F := Ideal)) X (Proc.devRef .tc main_v13)
      = planeInv (to2 (X (Proc.devRef .tc main_v0_0))) (to2 (X (Proc.devRef .tc main_v0_1))) := by
  generalize hY : planeInv (to2 (X (Proc.devRef .tc main_v0_0))) (to2 (X (Proc.devRef .tc main_v0_1))) = Y
  after_results_simp
  rw [← hY]
  unfold planeInv planeVar planeMean to2 cst2
  rfl

theorem first_v16 (X : Valuation τ sig (Elt Ideal)) :
    StableHlo.after (Gen.hostOps1 (F := Ideal)) X (Proc.devRef .tc main_v16)
      = chanMean (to2 (X (Proc.devRef .tc main_v0_0))) := by
  generalize hY : chanMean (to2 (X (Proc.devRef .tc main_v0_0))) = Y
  after_results_simp
  rw [← hY]
  unfold chanMean batchSum to2 cst1
  rfl

theorem first_v27 (X : Valuation τ sig (Elt Ideal)) :
    StableHlo.after (Gen.hostOps1 (F := Ideal)) X (Proc.devRef .tc main_v27)
      = chanScale (to2 (X (Proc.devRef .tc main_v0_0))) (to2 (X (Proc.devRef .tc main_v0_1))) (X (Proc.devRef .tc main_arg1)) := by
  generalize hY : chanScale (to2 (X (Proc.devRef .tc main_v0_0))) (to2 (X (Proc.devRef .tc main_v0_1))) (X (Proc.devRef .tc main_arg1)) = Y
  after_results_simp
  rw [← hY]
  unfold chanScale chanInv chanVar chanMean batchSum to2 cst1
  rfl

theorem first_c (X : Valuation τ sig (Elt Ideal)) :
    StableHlo.after (Gen.hostOps1 (F := Ideal)) X (Proc.devRef .tc main_c) = (constantI S_ 32 32#32 : IVec S_ 32) := by
  generalize hY : (constantI S_ 32 32#32 : IVec S_ 32) = Y
  after_results_simp
  rw [← hY]

/-! ## What each stretch leaves alone -/

theorem last_keep_arg0 (X : Valuation τ sig (Elt Ideal)) :
    StableHlo.after (Gen.hostOps1_2 (F := Ideal)) X (Proc.devRef .tc main_arg0) = X (Proc.devRef .tc main_arg0) := by
  not_written Gen.hostOps1_2
theorem mid_keep_v13 (X : Valuation τ sig (Elt Ideal)) :
    StableHlo.after (Gen.hostOps1_1 (F := Ideal)) X (Proc.devRef .tc main_v13) = X (Proc.devRef .tc main_v13) := by
  not_written Gen.hostOps1_1
theorem mid_keep_v27 (X : Valuation τ sig (Elt Ideal)) :
    StableHlo.after (Gen.hostOps1_1 (F := Ideal)) X (Proc.devRef .tc main_v27) = X (Proc.devRef .tc main_v27) := by
  not_written Gen.hostOps1_1
theorem mid_keep_v4 (X : Valuation τ sig (Elt Ideal)) :
    StableHlo.after (Gen.hostOps1_1 (F := Ideal)) X (Proc.devRef .tc main_v4) = X (Proc.devRef .tc main_v4) := by
  not_written Gen.hostOps1_1
theorem mid_keep_v16 (X : Valuation τ sig (Elt Ideal)) :
    StableHlo.after (Gen.hostOps1_1 (F := Ideal)) X (Proc.devRef .tc main_v16) = X (Proc.devRef .tc main_v16) := by
  not_written Gen.hostOps1_1
theorem mid_keep_arg2 (X : Valuation τ sig (Elt Ideal)) :
    StableHlo.after (Gen.hostOps1_1 (F := Ideal)) X (Proc.devRef .tc main_arg2) = X (Proc.devRef .tc main_arg2) := by
  not_written Gen.hostOps1_1
theorem mid_keep_arg3 (X : Valuation τ sig (Elt Ideal)) :
    StableHlo.after (Gen.hostOps1_1 (F := Ideal)) X (Proc.devRef .tc main_arg3) = X (Proc.devRef .tc main_arg3) := by
  not_written Gen.hostOps1_1
theorem mid_keep_arg4 (X : Valuation τ sig (Elt Ideal)) :
    StableHlo.after (Gen.hostOps1_1 (F := Ideal)) X (Proc.devRef .tc main_arg4) = X (Proc.devRef .tc main_arg4) := by
  not_written Gen.hostOps1_1
theorem mid_keep_arg0 (X : Valuation τ sig (Elt Ideal)) :
    StableHlo.after (Gen.hostOps1_1 (F := Ideal)) X (Proc.devRef .tc main_arg0) = X (Proc.devRef .tc main_arg0) := by
  not_written Gen.hostOps1_1
theorem first_keep_arg2 (X : Valuation τ sig (Elt Ideal)) :
    StableHlo.after (Gen.hostOps1 (F := Ideal)) X (Proc.devRef .tc main_arg2) = X (Proc.devRef .tc main_arg2) := by
  not_written Gen.hostOps1
theorem first_keep_arg3 (X : Valuation τ sig (Elt Ideal)) :
    StableHlo.after (Gen.hostOps1 (F := Ideal)) X (Proc.devRef .tc main_arg3) = X (Proc.devRef .tc main_arg3) := by
  not_written Gen.hostOps1
theorem first_keep_arg4 (X : Valuation τ sig (Elt Ideal)) :
    StableHlo.after (Gen.hostOps1 (F := Ideal)) X (Proc.devRef .tc main_arg4) = X (Proc.devRef .tc main_arg4) := by
  not_written Gen.hostOps1
theorem first_keep_arg5 (X : Valuation τ sig (Elt Ideal)) :
    StableHlo.after (Gen.hostOps1 (F := Ideal)) X (Proc.devRef .tc main_arg5) = X (Proc.devRef .tc main_arg5) := by
  not_written Gen.hostOps1
theorem first_keep_arg0 (X : Valuation τ sig (Elt Ideal)) :
    StableHlo.after (Gen.hostOps1 (F := Ideal)) X (Proc.devRef .tc main_arg0) = X (Proc.devRef .tc main_arg0) := by
  not_written Gen.hostOps1

/-! ## The stages read at an index -/

section AtIndex
open Cert.Blend

theorem to2_apply (t : A4) (b c : Fin 64) : to2 t (ix2 b c) = t (ix4 b c (0 : Fin 1) (0 : Fin 1)) := by
  unfold to2
  refine shapeCast_apply t Gen.shapeCasts_S64x64x1x1_S64x64 (ix2 b c) (ix4 b c 0 0) ?_
  rw [Shape.rowMajor_val_four, Shape.rowMajor_val_two]
  show ((b.val * 64 + c.val) * 1 + 0) * 1 + 0 = b.val * 64 + c.val
  omega

theorem to4_apply (t : A2) (b c : Fin 64) : to4 t (ix4 b c (0 : Fin 1) (0 : Fin 1)) = t (ix2 b c) := by
  unfold to4
  refine shapeCast_apply t Gen.shapeCasts_S64x64_S64x64x1x1 (ix4 b c 0 0) (ix2 b c) ?_
  rw [Shape.rowMajor_val_four, Shape.rowMajor_val_two]
  show b.val * 64 + c.val = ((b.val * 64 + c.val) * 1 + 0) * 1 + 0
  omega

theorem asRow_apply (v : A1) (c : Fin 64) : asRow v (ix2 (0 : Fin 1) c) = v (ix1 c) := by
  unfold asRow
  refine broadcastInDim_apply ![1] Gen.bcast_S64_S1x64_1 v (ix2 0 c) (ix1 c) ?_
  intro a
  match a with
  | ⟨0, _⟩ => rfl

theorem downRows_apply (r : FVec Ideal S1x64 .f32) (b c : Fin 64) : downRows r (ix2 b c) = r (ix2 (0 : Fin 1) c) := by
  unfold downRows
  exact broadcastInDim_oneRow_apply Gen.bcast_S1x64_S64x64_0_1 r b c

/-- The sum down the batch axis at channel c is the sum over the 64 samples (its start +0.0 is 0). -/
theorem batchSum_apply (s : A2) (c : Fin 64) : batchSum s (ix1 c) = ∑ b : Fin 64, s (ix2 b c) := by
  have h' : S64x64.ReducesTo [0] S64 := Gen.reducesTo_S64x64_S64_d0
  have h : S64x64.Reduces [0] S64 := ⟨h'.1, Nat.one_pos, h'.2⟩
  show Ideal.hostReduceAdd h' s (Ideal.ofBits .f32 0x00000000#32) (ix1 c) = _
  rw [Ideal.hostReduceAdd_single h' h, Ideal.ofBits_zero_f32, zero_add]
  show ∑ k : Fin 64, s (h.lift (ix1 c) k) = _
  refine Finset.sum_congr rfl fun k _ => congrArg s (funext fun a => Fin.ext ?_)
  match a with
  | ⟨0, _⟩ => rfl
  | ⟨1, _⟩ => rfl

variable (x : T4) (S1 S2 : A4)

theorem planeMean_at (h1 : ∀ b c : Fin 64, S1 (ix4 b c 0 0) = sumS x b c) (b c : Fin 64) :
    planeMean (to2 S1) (ix2 b c) = muS x b c := by
  show Ideal.div (to2 S1 (ix2 b c)) (Ideal.ofBits .f32 0x46440000#32) = _
  rw [to2_apply, h1]; rfl

theorem planeInv_at (h1 : ∀ b c : Fin 64, S1 (ix4 b c 0 0) = sumS x b c)
    (h2 : ∀ b c : Fin 64, S2 (ix4 b c 0 0) = sumSqS x b c) (b c : Fin 64) :
    planeInv (to2 S1) (to2 S2) (ix2 b c) = kInvS x b c := by
  show Ideal.rsqrt (max (Ideal.div (to2 S2 (ix2 b c)) (Ideal.ofBits .f32 0x46440000#32)
      - planeMean (to2 S1) (ix2 b c) * planeMean (to2 S1) (ix2 b c)) (Ideal.ofBits .f32 0x00000000#32)
      + Ideal.ofBits .f32 0x3727C5AC#32) = _
  rw [planeMean_at x S1 h1, to2_apply, h2, Ideal.ofBits_zero_f32]; rfl

theorem chanMean_at (h1 : ∀ b c : Fin 64, S1 (ix4 b c 0 0) = sumS x b c) (c : Fin 64) :
    chanMean (to2 S1) (ix1 c) = muG x c := by
  show Ideal.div (batchSum (to2 S1) (ix1 c)) (Ideal.ofBits .f32 0x49440000#32) = _
  rw [batchSum_apply, Finset.sum_congr rfl fun b _ => (to2_apply S1 b c).trans (h1 b c)]; rfl

theorem chanInv_at (h1 : ∀ b c : Fin 64, S1 (ix4 b c 0 0) = sumS x b c)
    (h2 : ∀ b c : Fin 64, S2 (ix4 b c 0 0) = sumSqS x b c) (c : Fin 64) :
    chanInv (to2 S1) (to2 S2) (ix1 c) = kInvG x c := by
  show Ideal.rsqrt (max (Ideal.div (batchSum (to2 S2) (ix1 c)) (Ideal.ofBits .f32 0x49440000#32)
      - chanMean (to2 S1) (ix1 c) * chanMean (to2 S1) (ix1 c)) (Ideal.ofBits .f32 0x00000000#32)
      + Ideal.ofBits .f32 0x3727C5AC#32) = _
  rw [chanMean_at x S1 h1, batchSum_apply, Finset.sum_congr rfl fun b _ => (to2_apply S2 b c).trans (h2 b c),
    Ideal.ofBits_zero_f32]; rfl

theorem chanScale_at (h1 : ∀ b c : Fin 64, S1 (ix4 b c 0 0) = sumS x b c)
    (h2 : ∀ b c : Fin 64, S2 (ix4 b c 0 0) = sumSqS x b c) (γ : A1) (c : Fin 64) :
    chanScale (to2 S1) (to2 S2) γ (ix1 c) = kScaleG x γ c := by
  show γ (ix1 c) * chanInv (to2 S1) (to2 S2) (ix1 c) = _
  rw [chanInv_at x S1 S2 h1 h2]; rfl

/-- The slope table at plane (b, c) is the specification's slope. -/
theorem slope_at (h1 : ∀ b c : Fin 64, S1 (ix4 b c 0 0) = sumS x b c)
    (h2 : ∀ b c : Fin 64, S2 (ix4 b c 0 0) = sumSqS x b c) (γ : A1) (g : A2) (b c : Fin 64) :
    slope (planeInv (to2 S1) (to2 S2)) (chanScale (to2 S1) (to2 S2) γ) g (ix4 b c 0 0) = kA x γ g b c := by
  unfold slope
  rw [to4_apply]
  show downRows (mulf (cstRow 0x3F000000#32) (asRow (chanScale (to2 S1) (to2 S2) γ))) (ix2 b c)
      + (Ideal.ofBits .f32 0x3F000000#32 * planeInv (to2 S1) (to2 S2) (ix2 b c)) * g (ix2 b c) = _
  rw [downRows_apply]
  show Ideal.ofBits .f32 0x3F000000#32 * asRow (chanScale (to2 S1) (to2 S2) γ) (ix2 (0 : Fin 1) c)
      + (Ideal.ofBits .f32 0x3F000000#32 * planeInv (to2 S1) (to2 S2) (ix2 b c)) * g (ix2 b c) = _
  rw [asRow_apply, chanScale_at x S1 S2 h1 h2, planeInv_at x S1 S2 h1 h2]; rfl

/-- The offset table at plane (b, c) is the specification's offset. -/
theorem offset_at (h1 : ∀ b c : Fin 64, S1 (ix4 b c 0 0) = sumS x b c)
    (h2 : ∀ b c : Fin 64, S2 (ix4 b c 0 0) = sumSqS x b c) (γ β : A1) (g bg : A2) (b c : Fin 64) :
    offset (planeMean (to2 S1)) (planeInv (to2 S1) (to2 S2)) (chanMean (to2 S1)) (chanScale (to2 S1) (to2 S2) γ) β g bg
        (ix4 b c 0 0) = kB x γ β g bg b c := by
  unfold offset
  rw [to4_apply]
  show downRows (mulf (cstRow 0x3F000000#32)
        (subf (asRow β) (mulf (asRow (chanMean (to2 S1))) (asRow (chanScale (to2 S1) (to2 S2) γ))))) (ix2 b c)
      + Ideal.ofBits .f32 0x3F000000#32
        * (bg (ix2 b c) - (planeMean (to2 S1) (ix2 b c) * planeInv (to2 S1) (to2 S2) (ix2 b c)) * g (ix2 b c)) = _
  rw [downRows_apply]
  show Ideal.ofBits .f32 0x3F000000#32
        * (asRow β (ix2 (0 : Fin 1) c)
            - asRow (chanMean (to2 S1)) (ix2 (0 : Fin 1) c) * asRow (chanScale (to2 S1) (to2 S2) γ) (ix2 (0 : Fin 1) c))
      + Ideal.ofBits .f32 0x3F000000#32
        * (bg (ix2 b c) - (planeMean (to2 S1) (ix2 b c) * planeInv (to2 S1) (to2 S2) (ix2 b c)) * g (ix2 b c)) = _
  rw [asRow_apply, asRow_apply, asRow_apply, chanMean_at x S1 h1, chanScale_at x S1 S2 h1 h2,
    planeMean_at x S1 h1, planeInv_at x S1 S2 h1 h2]; rfl

end AtIndex

/-! ## The three stretches composed: the slope and offset tables as the second region finds them -/

/-- The rows of a [32, 64] table picked per sample by label mod 32: the floored remainder of the labels by 32, the negative ones moved
    up by 32, and the gather of those rows. One term, the program's own; nothing below opens it. -/
def rows (tbl : FVec Ideal S32x64 .f32) (lab : Lab) : A2 := pick tbl (rem32 lab (constantI S_ 32 32#32))

section Run
variable (m : (ℓ : Loc nD τ sig) → Buf (Elt Ideal) ℓ) (ρ : Dev nD → PrngReg) (c : Dev nD)

/-- No region and no host operation writes an argument other than through a window that leaves it as entered:
    after region 0 the small arguments hold their launch contents. -/
theorem W1_arg (r : Ref sig .tc) (hr : ∀ w, Pipeline.arrRef spec0 w ≠ r) :
    Gen.W1 m ρ c (Proc.devRef .tc r) = m ((c : Thread nD τ).loc r) :=
  Gen.W1_of_ne m ρ c r hr

theorem W1_arg0 : Gen.W1 m ρ c (Proc.devRef .tc main_arg0) = m ((c : Thread nD τ).loc main_arg0) :=
  (Gen.W1_arr m ρ c 0).trans (((Gen.dat0 (Gen.V0 m ρ) c).arrAt_in 0 rfl _).trans (Gen.A_eq0 (Gen.V0 m ρ) c 0))

theorem V4_v65 :
    Gen.V4 m ρ c main_v65
      = slope (planeInv (to2 (Gen.W1 m ρ c (Proc.devRef .tc main_v0_0))) (to2 (Gen.W1 m ρ c (Proc.devRef .tc main_v0_1))))
          (chanScale (to2 (Gen.W1 m ρ c (Proc.devRef .tc main_v0_0))) (to2 (Gen.W1 m ρ c (Proc.devRef .tc main_v0_1)))
            (m ((c : Thread nD τ).loc main_arg1)))
          (rows (m ((c : Thread nD τ).loc main_arg3)) (m ((c : Thread nD τ).loc main_arg5))) := by
  show StableHlo.after Gen.hostOps1_2 (StableHlo.after Gen.hostOps1_1 (StableHlo.after Gen.hostOps1 (Gen.W1 m ρ c)))
      (Proc.devRef .tc main_v65) = _
  rw [last_v65, mid_keep_v13, mid_keep_v27, mid_keep_arg3, mid_v28, first_v13, first_v27, first_keep_arg3, first_keep_arg5,
    first_c, W1_arg m ρ c main_arg1 (by decide), W1_arg m ρ c main_arg3 (by decide), W1_arg m ρ c main_arg5 (by decide)]
  rfl

theorem V4_v66 :
    Gen.V4 m ρ c main_v66
      = offset (planeMean (to2 (Gen.W1 m ρ c (Proc.devRef .tc main_v0_0))))
          (planeInv (to2 (Gen.W1 m ρ c (Proc.devRef .tc main_v0_0))) (to2 (Gen.W1 m ρ c (Proc.devRef .tc main_v0_1))))
          (chanMean (to2 (Gen.W1 m ρ c (Proc.devRef .tc main_v0_0))))
          (chanScale (to2 (Gen.W1 m ρ c (Proc.devRef .tc main_v0_0))) (to2 (Gen.W1 m ρ c (Proc.devRef .tc main_v0_1)))
            (m ((c : Thread nD τ).loc main_arg1)))
          (m ((c : Thread nD τ).loc main_arg2))
          (rows (m ((c : Thread nD τ).loc main_arg3)) (m ((c : Thread nD τ).loc main_arg5)))
          (rows (m ((c : Thread nD τ).loc main_arg4)) (m ((c : Thread nD τ).loc main_arg5))) := by
  show StableHlo.after Gen.hostOps1_2 (StableHlo.after Gen.hostOps1_1 (StableHlo.after Gen.hostOps1 (Gen.W1 m ρ c)))
      (Proc.devRef .tc main_v66) = _
  rw [last_v66, mid_keep_v4, mid_keep_v13, mid_keep_v16, mid_keep_v27, mid_keep_arg2, mid_keep_arg3, mid_keep_arg4, mid_v28,
    first_v4, first_v13, first_v16, first_v27, first_keep_arg2, first_keep_arg3, first_keep_arg4, first_keep_arg5, first_c,
    W1_arg m ρ c main_arg1 (by decide), W1_arg m ρ c main_arg2 (by decide), W1_arg m ρ c main_arg3 (by decide),
    W1_arg m ρ c main_arg4 (by decide), W1_arg m ρ c main_arg5 (by decide)]
  rfl

theorem V4_arg0 : Gen.V4 m ρ c main_arg0 = m ((c : Thread nD τ).loc main_arg0) := by
  show StableHlo.after Gen.hostOps1_2 (StableHlo.after Gen.hostOps1_1 (StableHlo.after Gen.hostOps1 (Gen.W1 m ρ c)))
      (Proc.devRef .tc main_arg0) = _
  rw [last_keep_arg0, mid_keep_arg0, first_keep_arg0]
  exact W1_arg0 m ρ c

/-- Between the two regions: if region 0 left the plane sums and the plane sums of squares of x, then region 1 finds the
    specification's slope and offset tables (with the scale and shift rows picked per sample by label mod 32), and x itself. -/
theorem glue
    (h1 : ∀ b c' : Fin 64, Gen.W1 m ρ c (Proc.devRef .tc main_v0_0) (ix4 b c' 0 0)
        = Cert.Blend.sumS (m ((c : Thread nD τ).loc main_arg0)) b c')
    (h2 : ∀ b c' : Fin 64, Gen.W1 m ρ c (Proc.devRef .tc main_v0_1) (ix4 b c' 0 0)
        = Cert.Blend.sumSqS (m ((c : Thread nD τ).loc main_arg0)) b c') :
    (∀ b c' : Fin 64, Gen.V4 m ρ c main_v65 (ix4 b c' 0 0)
        = Cert.Blend.kA (m ((c : Thread nD τ).loc main_arg0)) (m ((c : Thread nD τ).loc main_arg1))
            (rows (m ((c : Thread nD τ).loc main_arg3)) (m ((c : Thread nD τ).loc main_arg5))) b c')
    ∧ (∀ b c' : Fin 64, Gen.V4 m ρ c main_v66 (ix4 b c' 0 0)
        = Cert.Blend.kB (m ((c : Thread nD τ).loc main_arg0)) (m ((c : Thread nD τ).loc main_arg1))
            (m ((c : Thread nD τ).loc main_arg2))
            (rows (m ((c : Thread nD τ).loc main_arg3)) (m ((c : Thread nD τ).loc main_arg5)))
            (rows (m ((c : Thread nD τ).loc main_arg4)) (m ((c : Thread nD τ).loc main_arg5))) b c')
    ∧ Gen.V4 m ρ c main_arg0 = m ((c : Thread nD τ).loc main_arg0) := by
  refine ⟨fun b c' => ?_, fun b c' => ?_, V4_arg0 m ρ c⟩
  · rw [V4_v65]
    exact slope_at _ _ _ h1 h2 _ _ b c'
  · rw [V4_v66]
    exact offset_at _ _ _ h1 h2 _ _ _ _ b c'

end Run

end Cert.KernelIdeal.Glue
end
-- ==== Proof.KernelValue.lean ====
/-
  The kernel program's result, index by index: out(b, c, h, w) = x(b, c, h, w) · A(b, c) + B(b, c).

  The second launch writes x times the slope plus the offset, block by block; the slope and offset tables are what the host
  lines between the two launches make of the first launch's plane sums and sums of squares; and those are the sums over each
  plane of x and of x².  Chaining the three readings gives the formula kernelOut of module Spec at every index.
-/
import proofs.«139731_j76192719831877_2_alg».proof.Proof.KernelRun
import proofs.«139731_j76192719831877_2_alg».proof.Proof.KernelRegion0
import proofs.«139731_j76192719831877_2_alg».proof.Proof.KernelRegion1
import proofs.«139731_j76192719831877_2_alg».proof.Proof.KernelGlue
import proofs.«139731_j76192719831877_2_alg».proof.Proof.Spec

noncomputable section

namespace Cert.KernelIdeal.Whole

open Idealize.ShloMosaic Idealize.ShloMosaic.ValueIdx Idealize.ShloMosaic.TcCoe Idealize.SL.Sem
open Cert.KernelIdeal Cert.KernelIdeal.Gen

/-- Every weakly fair execution of the kernel program ends with the result array at kernelOut of the argument arrays
    (the two [32, 64] tables entering through the rows picked per sample), and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (∀ (b c' : Fin 64) (h w : Fin 112), r.2.mem ((c.tc : Thread nD τ).loc main_v67) (ix4 b c' h w)
          = Cert.Blend.kernelOut (m ((c.tc : Thread nD τ).loc main_arg0)) (m ((c.tc : Thread nD τ).loc main_arg1))
              (m ((c.tc : Thread nD τ).loc main_arg2))
              (Glue.rows (m ((c.tc : Thread nD τ).loc main_arg3)) (m ((c.tc : Thread nD τ).loc main_arg5)))
              (Glue.rows (m ((c.tc : Thread nD τ).loc main_arg4)) (m ((c.tc : Thread nD τ).loc main_arg5))) b c' h w)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨fun b c' h' w => ?_, (h c).2⟩) (Named.run_named (F := Ideal) m ρ)
  obtain ⟨hA, hB, hX⟩ := Glue.glue m ρ c
    (fun b c' => (congrFun (Gen.W1_arr m ρ c 1) _).trans (Region0.arr1 (Gen.V0 m ρ) c b c'))
    (fun b c' => (congrFun (Gen.W1_arr m ρ c 2) _).trans (Region0.arr2 (Gen.V0 m ρ) c b c'))
  rw [(h c).1, Region1.arr3 (Gen.V4 m ρ) c b c' h' w]
  unfold Region1.affineAt
  rw [hX, hA, hB]
  rfl

end Cert.KernelIdeal.Whole

end
-- ==== Proof.RefRun.lean ====
/-
  The reference program as one straight line.

  The reference computes, from x : [64, 64, 112, 112], two scale/shift vectors of length 64, two [32, 64] tables and 64
  integer labels: the channel mean and variance of x over (batch, height, width); the plane mean and variance over
  (height, width); the rows of the two tables at label mod 32; and the half-and-half blend of the two normalizations.
  It is written with three helper functions (the variance over three axes, the variance over two axes, the integer
  remainder with the sign of the divisor), each of which calls a select helper.  A call means the callee's body on the
  operands, so the program is the list below: the 67 operations of the main function with the 23 + 23 + 20 operations
  of the three helpers in place of the calls, 133 in all, in order.  Every buffer then ends at the fold of the
  operations over the launch contents.
-/
import proofs.«139731_j76192719831877_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 133 operations in order, the helpers' bodies in place of their calls: the channel sum and mean;
    the three-axis variance (mean again, deviations, their squares, the sum of squares, the count minus the degrees
    of freedom, the quotient, and the select that keeps the quotient when that count is positive); the channel
    normalization; the plane sum and mean; the two-axis variance in the same steps; the plane normalization; the
    labels' remainder by 32 made non-negative; the two gathers of table rows; the blend. -/
abbrev ops : List (HloOp τ sig (Elt F)) :=
  [
    nullary main_cst (constant S_ .f32 0x00000000#32),
    binary main_arg0 main_cst main_v0 ((fun x v => Host.reduceAdd x v reducesTo_S64x64x112x112_S64_d0_2_3 h_S_) : (⟨S64x64x112x112, .f32⟩ : BufTy).Contents (Elt F) → (⟨S_, .f32⟩ : BufTy).Contents (Elt F) → (⟨S64, .f32⟩ : BufTy).Contents (Elt F)),
    nullary main_cst_0 (constant S_ .f32 0x49440000#32),
    unary main_cst_0 main_v1 (broadcastInDim S64 ![] bcast_S_S64 : (⟨S_, .f32⟩ : BufTy).Contents (Elt F) → (⟨S64, .f32⟩ : BufTy).Contents (Elt F)),
    binary main_v0 main_v1 main_v2 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S64x64x112x112_S64_d0_2_3 h_S_),
    TRef.unary main_call0.v0 main_call0.v1 (broadcastInDim S1x64x1x1 ![1] bcast_S64_S1x64x1x1_1),
    TRef.nullary main_call0.cst_0 (constant S_ .f32 0x49440000#32),
    TRef.unary main_call0.cst_0 main_call0.v2 (broadcastInDim S1x64x1x1 ![] bcast_S_S1x64x1x1),
    TRef.binary main_call0.v1 main_call0.v2 main_call0.v3 Host.divf,
    TRef.unary main_call0.v3 main_call0.v4 (broadcastInDim S64x64x112x112 ![0, 1, 2, 3] bcast_S1x64x1x1_S64x64x112x112_0_1_2_3),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x49440000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S64x64x112x112_S64_d0_2_3 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    nullary main_cst_1 (constant S_ .f32 0x3727C5AC#32),
    unary main_cst_1 main_v4 (broadcastInDim S64 ![] bcast_S_S64 : (⟨S_, .f32⟩ : BufTy).Contents (Elt F) → (⟨S64, .f32⟩ : BufTy).Contents (Elt F)),
    binary main_v3 main_v4 main_v5 (addf : (⟨S64, .f32⟩ : BufTy).Contents (Elt F) → (⟨S64, .f32⟩ : BufTy).Contents (Elt F) → (⟨S64, .f32⟩ : BufTy).Contents (Elt F)),
    unary main_v5 main_v6 (Host.rsqrt : (⟨S64, .f32⟩ : BufTy).Contents (Elt F) → (⟨S64, .f32⟩ : BufTy).Contents (Elt F)),
    unary main_v2 main_v7 (broadcastInDim S1x64x1x1 ![1] bcast_S64_S1x64x1x1_1 : (⟨S64, .f32⟩ : BufTy).Contents (Elt F) → (⟨S1x64x1x1, .f32⟩ : BufTy).Contents (Elt F)),
    unary main_v7 main_v8 (broadcastInDim S64x64x112x112 ![0, 1, 2, 3] bcast_S1x64x1x1_S64x64x112x112_0_1_2_3 : (⟨S1x64x1x1, .f32⟩ : BufTy).Contents (Elt F) → (⟨S64x64x112x112, .f32⟩ : BufTy).Contents (Elt F)),
    binary main_arg0 main_v8 main_v9 (subf : (⟨S64x64x112x112, .f32⟩ : BufTy).Contents (Elt F) → (⟨S64x64x112x112, .f32⟩ : BufTy).Contents (Elt F) → (⟨S64x64x112x112, .f32⟩ : BufTy).Contents (Elt F)),
    binary main_arg1 main_v6 main_v10 (mulf : (⟨S64, .f32⟩ : BufTy).Contents (Elt F) → (⟨S64, .f32⟩ : BufTy).Contents (Elt F) → (⟨S64, .f32⟩ : BufTy).Contents (Elt F)),
    unary main_v10 main_v11 (broadcastInDim S1x64x1x1 ![1] bcast_S64_S1x64x1x1_1 : (⟨S64, .f32⟩ : BufTy).Contents (Elt F) → (⟨S1x64x1x1, .f32⟩ : BufTy).Contents (Elt F)),
    unary main_v11 main_v12 (broadcastInDim S64x64x112x112 ![0, 1, 2, 3] bcast_S1x64x1x1_S64x64x112x112_0_1_2_3 : (⟨S1x64x1x1, .f32⟩ : BufTy).Contents (Elt F) → (⟨S64x64x112x112, .f32⟩ : BufTy).Contents (Elt F)),
    binary main_v9 main_v12 main_v13 (mulf : (⟨S64x64x112x112, .f32⟩ : BufTy).Contents (Elt F) → (⟨S64x64x112x112, .f32⟩ : BufTy).Contents (Elt F) → (⟨S64x64x112x112, .f32⟩ : BufTy).Contents (Elt F)),
    unary main_arg2 main_v14 (broadcastInDim S1x64x1x1 ![1] bcast_S64_S1x64x1x1_1 : (⟨S64, .f32⟩ : BufTy).Contents (Elt F) → (⟨S1x64x1x1, .f32⟩ : BufTy).Contents (Elt F)),
    unary main_v14 main_v15 (broadcastInDim S64x64x112x112 ![0, 1, 2, 3] bcast_S1x64x1x1_S64x64x112x112_0_1_2_3 : (⟨S1x64x1x1, .f32⟩ : BufTy).Contents (Elt F) → (⟨S64x64x112x112, .f32⟩ : BufTy).Contents (Elt F)),
    binary main_v13 main_v15 main_v16 (addf : (⟨S64x64x112x112, .f32⟩ : BufTy).Contents (Elt F) → (⟨S64x64x112x112, .f32⟩ : BufTy).Contents (Elt F) → (⟨S64x64x112x112, .f32⟩ : BufTy).Contents (Elt F)),
    nullary main_cst_2 (constant S_ .f32 0x00000000#32),
    binary main_arg0 main_cst_2 main_v17 ((fun x v => Host.reduceAdd x v reducesTo_S64x64x112x112_S64x64_d2_3 h_S_) : (⟨S64x64x112x112, .f32⟩ : BufTy).Contents (Elt F) → (⟨S_, .f32⟩ : BufTy).Contents (Elt F) → (⟨S64x64, .f32⟩ : BufTy).Contents (Elt F)),
    unary main_v17 main_v18 (broadcastInDim S64x64x1x1 ![0, 1] bcast_S64x64_S64x64x1x1_0_1 : (⟨S64x64, .f32⟩ : BufTy).Contents (Elt F) → (⟨S64x64x1x1, .f32⟩ : BufTy).Contents (Elt F)),
    nullary main_cst_3 (constant S_ .f32 0x46440000#32),
    unary main_cst_3 main_v19 (broadcastInDim S64x64x1x1 ![] bcast_S_S64x64x1x1 : (⟨S_, .f32⟩ : BufTy).Contents (Elt F) → (⟨S64x64x1x1, .f32⟩ : BufTy).Contents (Elt F)),
    binary main_v18 main_v19 main_v20 (Host.divf : (⟨S64x64x1x1, .f32⟩ : BufTy).Contents (Elt F) → (⟨S64x64x1x1, .f32⟩ : BufTy).Contents (Elt F) → (⟨S64x64x1x1, .f32⟩ : BufTy).Contents (Elt F)),
    nullary main_c_4 (constantI S_ 32 0#32),
    TRef.nullary main_call1.cst (constant S_ .f32 0x00000000#32),
    TRef.binary (.of main_arg0) main_call1.cst main_call1.v0 (fun x v => Host.reduceAdd x v reducesTo_S64x64x112x112_S64x64_d2_3 h_S_),
    TRef.unary main_call1.v0 main_call1.v1 (broadcastInDim S64x64x1x1 ![0, 1] bcast_S64x64_S64x64x1x1_0_1),
    TRef.nullary main_call1.cst_0 (constant S_ .f32 0x46440000#32),
    TRef.unary main_call1.cst_0 main_call1.v2 (broadcastInDim S64x64x1x1 ![] bcast_S_S64x64x1x1),
    TRef.binary main_call1.v1 main_call1.v2 main_call1.v3 Host.divf,
    TRef.unary main_call1.v3 main_call1.v4 (broadcastInDim S64x64x112x112 ![0, 1, 2, 3] bcast_S64x64x1x1_S64x64x112x112_0_1_2_3),
    TRef.binary (.of main_arg0) main_call1.v4 main_call1.v5 subf,
    TRef.binary main_call1.v5 main_call1.v5 main_call1.v6 mulf,
    TRef.unary (.of main_c_4) main_call1.v7 (sitofp .f32),
    TRef.nullary main_call1.cst_1 (constant S_ .f32 0x46440000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S64x64x112x112_S64x64_d2_3 h_S_),
    TRef.unary main_call1.v9 main_call1.v10 (broadcastInDim S64x64x1x1 ![0, 1] bcast_S64x64_S64x64x1x1_0_1),
    TRef.unary main_call1.v8 main_call1.v11 (broadcastInDim S64x64x1x1 ![] bcast_S_S64x64x1x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S64x64x1x1 ![] bcast_S_S64x64x1x1),
    TRef.ternary main_call1.v13 main_call1.v12 main_call1.call0.v1 main_call1.call0.v2 (fun p a b => select (broadcastInDim S64x64x1x1 ![] bcast_S_S64x64x1x1 p) a b),
    unary main_v20 main_v22 (broadcastInDim S64x64x112x112 ![0, 1, 2, 3] bcast_S64x64x1x1_S64x64x112x112_0_1_2_3 : (⟨S64x64x1x1, .f32⟩ : BufTy).Contents (Elt F) → (⟨S64x64x112x112, .f32⟩ : BufTy).Contents (Elt F)),
    binary main_arg0 main_v22 main_v23 (subf : (⟨S64x64x112x112, .f32⟩ : BufTy).Contents (Elt F) → (⟨S64x64x112x112, .f32⟩ : BufTy).Contents (Elt F) → (⟨S64x64x112x112, .f32⟩ : BufTy).Contents (Elt F)),
    nullary main_cst_5 (constant S_ .f32 0x3727C5AC#32),
    unary main_cst_5 main_v24 (broadcastInDim S64x64x1x1 ![] bcast_S_S64x64x1x1 : (⟨S_, .f32⟩ : BufTy).Contents (Elt F) → (⟨S64x64x1x1, .f32⟩ : BufTy).Contents (Elt F)),
    binary main_v21 main_v24 main_v25 (addf : (⟨S64x64x1x1, .f32⟩ : BufTy).Contents (Elt F) → (⟨S64x64x1x1, .f32⟩ : BufTy).Contents (Elt F) → (⟨S64x64x1x1, .f32⟩ : BufTy).Contents (Elt F)),
    unary main_v25 main_v26 (Host.rsqrt : (⟨S64x64x1x1, .f32⟩ : BufTy).Contents (Elt F) → (⟨S64x64x1x1, .f32⟩ : BufTy).Contents (Elt F)),
    unary main_v26 main_v27 (broadcastInDim S64x64x112x112 ![0, 1, 2, 3] bcast_S64x64x1x1_S64x64x112x112_0_1_2_3 : (⟨S64x64x1x1, .f32⟩ : BufTy).Contents (Elt F) → (⟨S64x64x112x112, .f32⟩ : BufTy).Contents (Elt F)),
    binary main_v23 main_v27 main_v28 (mulf : (⟨S64x64x112x112, .f32⟩ : BufTy).Contents (Elt F) → (⟨S64x64x112x112, .f32⟩ : BufTy).Contents (Elt F) → (⟨S64x64x112x112, .f32⟩ : BufTy).Contents (Elt F)),
    nullary main_c_6 (constantI S_ 32 32#32),
    TRef.unary (.of main_c_6) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S64 ![] bcast_S_S64),
    TRef.binary (.of main_arg5) main_call2.v3 main_call2.v4 Host.remsi,
    TRef.nullary main_call2.c_1 (constantI S_ 32 0#32),
    TRef.unary main_call2.c_1 main_call2.v5 (broadcastInDim S64 ![] bcast_S_S64),
    TRef.binary main_call2.v4 main_call2.v5 main_call2.v6 (cmpi .ne),
    TRef.nullary main_call2.c_2 (constantI S_ 32 0#32),
    TRef.unary main_call2.c_2 main_call2.v7 (broadcastInDim S64 ![] bcast_S_S64),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S64 ![] bcast_S_S64),
    TRef.binary main_call2.v8 main_call2.v10 main_call2.v11 (cmpi .ne),
    TRef.binary main_call2.v11 main_call2.v6 main_call2.v12 andi,
    TRef.unary main_call2.call0.v0 main_call2.v13 (broadcastInDim S64 ![] bcast_S_S64),
    TRef.binary main_call2.v4 main_call2.v13 main_call2.v14 addi,
    TRef.ternary main_call2.v12 main_call2.v14 main_call2.v4 main_call2.v15 select,
    nullary main_c_7 (constantI S_ 32 0#32),
    unary main_c_7 main_v30 (broadcastInDim S64 ![] bcast_S_S64 : (⟨S_, .i32⟩ : BufTy).Contents (Elt F) → (⟨S64, .i32⟩ : BufTy).Contents (Elt F)),
    binary main_v29 main_v30 main_v31 (cmpi .slt : (⟨S64, .i32⟩ : BufTy).Contents (Elt F) → (⟨S64, .i32⟩ : BufTy).Contents (Elt F) → (⟨S64, .i1⟩ : BufTy).Contents (Elt F)),
    nullary main_c_8 (constantI S_ 32 32#32),
    unary main_c_8 main_v32 (broadcastInDim S64 ![] bcast_S_S64 : (⟨S_, .i32⟩ : BufTy).Contents (Elt F) → (⟨S64, .i32⟩ : BufTy).Contents (Elt F)),
    binary main_v29 main_v32 main_v33 (addi : (⟨S64, .i32⟩ : BufTy).Contents (Elt F) → (⟨S64, .i32⟩ : BufTy).Contents (Elt F) → (⟨S64, .i32⟩ : BufTy).Contents (Elt F)),
    ternary main_v31 main_v33 main_v29 main_v34 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v34 main_v35 (broadcastInDim S64x1 ![0] bcast_S64_S64x1_0 : (⟨S64, .i32⟩ : BufTy).Contents (Elt F) → (⟨S64x1, .i32⟩ : BufTy).Contents (Elt F)),
    binary main_arg3 main_v35 main_v36 ((fun x i => Host.gather gather_S32x64_S64x1_S64x64_1_0_n_n_0_1_164 x i) : (⟨S32x64, .f32⟩ : BufTy).Contents (Elt F) → (⟨S64x1, .i32⟩ : BufTy).Contents (Elt F) → (⟨S64x64, .f32⟩ : BufTy).Contents (Elt F)),
    unary main_v36 main_v37 (broadcastInDim S64x64x1x1 ![0, 1] bcast_S64x64_S64x64x1x1_0_1 : (⟨S64x64, .f32⟩ : BufTy).Contents (Elt F) → (⟨S64x64x1x1, .f32⟩ : BufTy).Contents (Elt F)),
    nullary main_c_9 (constantI S_ 32 0#32),
    unary main_c_9 main_v38 (broadcastInDim S64 ![] bcast_S_S64 : (⟨S_, .i32⟩ : BufTy).Contents (Elt F) → (⟨S64, .i32⟩ : BufTy).Contents (Elt F)),
    binary main_v29 main_v38 main_v39 (cmpi .slt : (⟨S64, .i32⟩ : BufTy).Contents (Elt F) → (⟨S64, .i32⟩ : BufTy).Contents (Elt F) → (⟨S64, .i1⟩ : BufTy).Contents (Elt F)),
    nullary main_c_10 (constantI S_ 32 32#32),
    unary main_c_10 main_v40 (broadcastInDim S64 ![] bcast_S_S64 : (⟨S_, .i32⟩ : BufTy).Contents (Elt F) → (⟨S64, .i32⟩ : BufTy).Contents (Elt F)),
    binary main_v29 main_v40 main_v41 (addi : (⟨S64, .i32⟩ : BufTy).Contents (Elt F) → (⟨S64, .i32⟩ : BufTy).Contents (Elt F) → (⟨S64, .i32⟩ : BufTy).Contents (Elt F)),
    ternary main_v39 main_v41 main_v29 main_v42 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v42 main_v43 (broadcastInDim S64x1 ![0] bcast_S64_S64x1_0 : (⟨S64, .i32⟩ : BufTy).Contents (Elt F) → (⟨S64x1, .i32⟩ : BufTy).Contents (Elt F)),
    binary main_arg4 main_v43 main_v44 ((fun x i => Host.gather gather_S32x64_S64x1_S64x64_1_0_n_n_0_1_164 x i) : (⟨S32x64, .f32⟩ : BufTy).Contents (Elt F) → (⟨S64x1, .i32⟩ : BufTy).Contents (Elt F) → (⟨S64x64, .f32⟩ : BufTy).Contents (Elt F)),
    unary main_v44 main_v45 (broadcastInDim S64x64x1x1 ![0, 1] bcast_S64x64_S64x64x1x1_0_1 : (⟨S64x64, .f32⟩ : BufTy).Contents (Elt F) → (⟨S64x64x1x1, .f32⟩ : BufTy).Contents (Elt F)),
    unary main_v37 main_v46 (broadcastInDim S64x64x112x112 ![0, 1, 2, 3] bcast_S64x64x1x1_S64x64x112x112_0_1_2_3 : (⟨S64x64x1x1, .f32⟩ : BufTy).Contents (Elt F) → (⟨S64x64x112x112, .f32⟩ : BufTy).Contents (Elt F)),
    binary main_v28 main_v46 main_v47 (mulf : (⟨S64x64x112x112, .f32⟩ : BufTy).Contents (Elt F) → (⟨S64x64x112x112, .f32⟩ : BufTy).Contents (Elt F) → (⟨S64x64x112x112, .f32⟩ : BufTy).Contents (Elt F)),
    unary main_v45 main_v48 (broadcastInDim S64x64x112x112 ![0, 1, 2, 3] bcast_S64x64x1x1_S64x64x112x112_0_1_2_3 : (⟨S64x64x1x1, .f32⟩ : BufTy).Contents (Elt F) → (⟨S64x64x112x112, .f32⟩ : BufTy).Contents (Elt F)),
    binary main_v47 main_v48 main_v49 (addf : (⟨S64x64x112x112, .f32⟩ : BufTy).Contents (Elt F) → (⟨S64x64x112x112, .f32⟩ : BufTy).Contents (Elt F) → (⟨S64x64x112x112, .f32⟩ : BufTy).Contents (Elt F)),
    nullary main_cst_11 (constant S_ .f32 0x3F000000#32),
    unary main_cst_11 main_v50 (broadcastInDim S64x64x112x112 ![] bcast_S_S64x64x112x112 : (⟨S_, .f32⟩ : BufTy).Contents (Elt F) → (⟨S64x64x112x112, .f32⟩ : BufTy).Contents (Elt F)),
    binary main_v50 main_v16 main_v51 (mulf : (⟨S64x64x112x112, .f32⟩ : BufTy).Contents (Elt F) → (⟨S64x64x112x112, .f32⟩ : BufTy).Contents (Elt F) → (⟨S64x64x112x112, .f32⟩ : BufTy).Contents (Elt F)),
    nullary main_cst_12 (constant S_ .f32 0x3F000000#32),
    unary main_cst_12 main_v52 (broadcastInDim S64x64x112x112 ![] bcast_S_S64x64x112x112 : (⟨S_, .f32⟩ : BufTy).Contents (Elt F) → (⟨S64x64x112x112, .f32⟩ : BufTy).Contents (Elt F)),
    binary main_v52 main_v49 main_v53 (mulf : (⟨S64x64x112x112, .f32⟩ : BufTy).Contents (Elt F) → (⟨S64x64x112x112, .f32⟩ : BufTy).Contents (Elt F) → (⟨S64x64x112x112, .f32⟩ : BufTy).Contents (Elt F)),
    binary main_v51 main_v53 main_v54 (addf : (⟨S64x64x112x112, .f32⟩ : BufTy).Contents (Elt F) → (⟨S64x64x112x112, .f32⟩ : BufTy).Contents (Elt F) → (⟨S64x64x112x112, .f32⟩ : BufTy).Contents (Elt F)) ]

-- 133 binds re-associated: the rewrite under the chain recurses once per statement
set_option maxRecDepth 8192 in
set_option maxHeartbeats 4000000 in
/-- The main function is that straight line: the helpers' definitions unfolded at their calls, and sequencing
    re-associated. -/
theorem main_eq (c : Dev nD) : main (F := F) c = seq ops := by
  simp only [main, main_part0, main_part1, fn_var.body, fn_where.body, fn_var_0.body, fn_where_1.body,
    fn_remainder.body, fn_where_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., nullary_bufs_sub .., unary_bufs_sub ..,
    binary_bufs_sub .., unary_bufs_sub .., unary_bufs_sub .., unary_bufs_sub .., binary_bufs_sub .., binary_bufs_sub ..,
    unary_bufs_sub .., unary_bufs_sub .., binary_bufs_sub .., unary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    binary_bufs_sub ..⟩

set_option maxRecDepth 8192 in
set_option maxHeartbeats 4000000 in
/-- For any float values, from any memory with zero counters: every weakly fair execution of the reference
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibIdx4.lean ====
/-
  A rank-4 index set is the product of its four coordinate ranges, so a sum over it is the fourfold sum over the
  coordinates, outermost axis first.  (The library has the rank-2 form; this is the same statement two ranks up.)
-/
import Idealize.ShloMosaic.Lib.ValueIdx

noncomputable section

open scoped BigOperators

namespace Cert.Blend

open Idealize.ShloMosaic Idealize.ShloMosaic.ValueIdx

/-- A rank-4 index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The sum over the indices picked by a predicate that holds exactly when coordinates 0 and 1 are (b, c) is the
    double sum over coordinates 2 and 3. -/
theorem sum_filter_plane {M : Type*} [AddCommMonoid M] {n0 n1 n2 n3 : Nat} (f : (⟨4, ![n0, n1, n2, n3]⟩ : Shape).Idx → M)
    (b : Fin n0) (c : Fin n1) (p : (⟨4, ![n0, n1, n2, n3]⟩ : Shape).Idx → Prop) [DecidablePred p]
    (hp : ∀ (a : Fin n0) (a' : Fin n1) (h : Fin n2) (w : Fin n3), p (ix4 a a' h w) ↔ (a = b ∧ a' = c)) :
    ∑ i ∈ Finset.univ.filter p, f i = ∑ h : Fin n2, ∑ w : Fin n3, f (ix4 b c h w) := by
  rw [Finset.sum_filter, sum_idx4]
  rw [Finset.sum_eq_single b (fun a _ hab => ?_) (fun hb => absurd (Finset.mem_univ b) hb)]
  · rw [Finset.sum_eq_single c (fun a _ hac => ?_) (fun hc => absurd (Finset.mem_univ c) hc)]
    · refine Finset.sum_congr rfl fun h _ => Finset.sum_congr rfl fun w _ => ?_
      exact if_pos ((hp b c h w).mpr ⟨rfl, rfl⟩)
    · refine Finset.sum_eq_zero fun h _ => Finset.sum_eq_zero fun w _ => ?_
      exact if_neg fun hh => hac ((hp b a h w).mp hh).2
  · refine Finset.sum_eq_zero fun a' _ => Finset.sum_eq_zero fun h _ => Finset.sum_eq_zero fun w _ => ?_
    exact if_neg fun hh => hab ((hp a a' h w).mp hh).1

/-- The sum over the indices picked by a predicate that holds exactly when coordinate 1 is c is the triple sum over
    coordinates 0, 2 and 3. -/
theorem sum_filter_channel {M : Type*} [AddCommMonoid M] {n0 n1 n2 n3 : Nat} (f : (⟨4, ![n0, n1, n2, n3]⟩ : Shape).Idx → M)
    (c : Fin n1) (p : (⟨4, ![n0, n1, n2, n3]⟩ : Shape).Idx → Prop) [DecidablePred p]
    (hp : ∀ (a : Fin n0) (a' : Fin n1) (h : Fin n2) (w : Fin n3), p (ix4 a a' h w) ↔ a' = c) :
    ∑ i ∈ Finset.univ.filter p, f i = ∑ b : Fin n0, ∑ h : Fin n2, ∑ w : Fin n3, f (ix4 b c h w) := by
  rw [Finset.sum_filter, sum_idx4]
  refine Finset.sum_congr rfl fun b _ => ?_
  rw [Finset.sum_eq_single c (fun a _ hac => ?_) (fun hc => absurd (Finset.mem_univ c) hc)]
  · refine Finset.sum_congr rfl fun h _ => Finset.sum_congr rfl fun w _ => ?_
    exact if_pos ((hp b c h w).mpr rfl)
  · refine Finset.sum_eq_zero fun h _ => Finset.sum_eq_zero fun w _ => ?_
    exact if_neg fun hh => hac ((hp b a h w).mp hh)

end Cert.Blend

end
-- ==== Proof.RefValue.lean ====
/-
  The reference's result, read index by index.

  The reference normalizes x : [64, 64, 112, 112] twice and blends the two with weight 1/2 each.  Per channel c: the
  mean over (batch, height, width) and the variance as the mean of the squared deviations from it.  Per plane (b, c):
  the mean over (height, width) and the variance likewise.  The variance helper divides the sum of squared deviations
  by the count minus a "degrees of freedom" word that is the integer 0 converted to a float, and keeps the quotient
  only where that difference is positive (otherwise a NaN word): the difference is the count itself, a positive
  real, so the quotient is kept.  The plane normalization is scaled and shifted by rows of two [32, 64] tables picked
  per sample by label mod 32; the integer chain that computes the row numbers and the gather that picks the rows are
  carried here as one term, `rows`, never opened.

  The sums over several axes are the initial value 0 plus the sum over the indices that drop to the result index;
  an index (a, a', h, w) drops to (a, a') when the last two axes are reduced and to (a') when axes 0, 2, 3 are, so
  the sums are the nested sums over the reduced coordinates.
-/
import proofs.«139731_j76192719831877_2_alg».proof.Proof.RefRun
import proofs.«139731_j76192719831877_2_alg».proof.Proof.Spec
import proofs.«139731_j76192719831877_2_alg».proof.Proof.LibIdx4
import proofs.«139731_j76192719831877_2_alg».proof.Proof.Consts
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

/-! ## The program's stages, as arrays -/

/-- The scalar float words the program spells: zero, the two counts, the NaN the variance helper falls back to,
    the variance offset, one half. -/
def zeroS : FVec Ideal S_ .f32 := constant (F := Ideal) S_ .f32 0x00000000#32
def nBHWs : FVec Ideal S_ .f32 := constant (F := Ideal) S_ .f32 0x49440000#32
def nHWs : FVec Ideal S_ .f32 := constant (F := Ideal) S_ .f32 0x46440000#32
def nanS : FVec Ideal S_ .f32 := constant (F := Ideal) S_ .f32 0x7FC00000#32
def epsS : FVec Ideal S_ .f32 := constant (F := Ideal) S_ .f32 0x3727C5AC#32
def halfS : FVec Ideal S_ .f32 := constant (F := Ideal) S_ .f32 0x3F000000#32
/-- The variance helpers' "degrees of freedom": the integer 0 as a float. -/
def ddofS : FVec Ideal S_ .f32 := sitofp (F := Ideal) .f32 (constantI S_ 32 0#32)

/-- A [64] array along axis 1 of [1, 64, 1, 1]; that along the whole array; a [64, 64] array as [64, 64, 1, 1];
    that along the whole array. -/
def toK1 {α : Type} (v : S64.Idx → α) : S1x64x1x1.Idx → α := broadcastInDim S1x64x1x1 ![1] bcast_S64_S1x64x1x1_1 v
def ofK1 {α : Type} (u : S1x64x1x1.Idx → α) : S64x64x112x112.Idx → α :=
  broadcastInDim S64x64x112x112 ![0, 1, 2, 3] bcast_S1x64x1x1_S64x64x112x112_0_1_2_3 u
def toK2 {α : Type} (v : S64x64.Idx → α) : S64x64x1x1.Idx → α := broadcastInDim S64x64x1x1 ![0, 1] bcast_S64x64_S64x64x1x1_0_1 v
def ofK2 {α : Type} (u : S64x64x1x1.Idx → α) : S64x64x112x112.Idx → α :=
  broadcastInDim S64x64x112x112 ![0, 1, 2, 3] bcast_S64x64x1x1_S64x64x112x112_0_1_2_3 u

/-- The sum of an array over (batch, height, width), per channel; over (height, width), per plane. -/
def sumCh (y : FVec Ideal S64x64x112x112 .f32) : FVec Ideal S64 .f32 :=
  Host.reduceAdd (F := Ideal) y zeroS reducesTo_S64x64x112x112_S64_d0_2_3 h_S_
def sumPl (y : FVec Ideal S64x64x112x112 .f32) : FVec Ideal S64x64 .f32 :=
  Host.reduceAdd (F := Ideal) y zeroS reducesTo_S64x64x112x112_S64x64_d2_3 h_S_

/-! ### The channel normalization -/

/-- The channel means as a [64] array. -/
def muGv (x : FVec Ideal S64x64x112x112 .f32) : FVec Ideal S64 .f32 :=
  Host.divf (F := Ideal) (sumCh x) (broadcastInDim S64 ![] bcast_S_S64 nBHWs)
/-- The channel means as the variance helper takes them again, a [1, 64, 1, 1] array. -/
def muGk (x : FVec Ideal S64x64x112x112 .f32) : FVec Ideal S1x64x1x1 .f32 :=
  Host.divf (F := Ideal) (toK1 (sumCh x)) (broadcastInDim S1x64x1x1 ![] bcast_S_S1x64x1x1 nBHWs)
/-- The deviations from the channel mean, inside the variance helper. -/
def devG (x : FVec Ideal S64x64x112x112 .f32) : FVec Ideal S64x64x112x112 .f32 := subf x (ofK1 (muGk x))
/-- The helper's normalizer: the count minus the degrees of freedom. -/
def normG : FVec Ideal S_ .f32 := subf nBHWs ddofS
/-- The channel variances: the quotient where the normalizer is positive, else the NaN word. -/
def varGv (x : FVec Ideal S64x64x112x112 .f32) : FVec Ideal S64 .f32 :=
  select (broadcastInDim S64 ![] bcast_S_S64 (cmpf .ogt normG zeroS))
    (Host.divf (F := Ideal) (sumCh (mulf (devG x) (devG x))) (broadcastInDim S64 ![] bcast_S_S64 normG))
    (broadcastInDim S64 ![] bcast_S_S64 nanS)
def invGv (x : FVec Ideal S64x64x112x112 .f32) : FVec Ideal S64 .f32 :=
  Host.rsqrt (F := Ideal) (addf (varGv x) (broadcastInDim S64 ![] bcast_S_S64 epsS))
/-- The channel normalization of x with scale γ and shift β. -/
def xGlobal (x : FVec Ideal S64x64x112x112 .f32) (γ β : FVec Ideal S64 .f32) : FVec Ideal S64x64x112x112 .f32 :=
  addf (mulf (subf x (ofK1 (toK1 (muGv x)))) (ofK1 (toK1 (mulf γ (invGv x))))) (ofK1 (toK1 β))

/-! ### The plane normalization -/

/-- The plane means, a [64, 64, 1, 1] array (the program computes it twice, in the same words). -/
def muSk (x : FVec Ideal S64x64x112x112 .f32) : FVec Ideal S64x64x1x1 .f32 :=
  Host.divf (F := Ideal) (toK2 (sumPl x)) (broadcastInDim S64x64x1x1 ![] bcast_S_S64x64x1x1 nHWs)
def devS (x : FVec Ideal S64x64x112x112 .f32) : FVec Ideal S64x64x112x112 .f32 := subf x (ofK2 (muSk x))
def normS : FVec Ideal S_ .f32 := subf nHWs ddofS
def varSk (x : FVec Ideal S64x64x112x112 .f32) : FVec Ideal S64x64x1x1 .f32 :=
  select (broadcastInDim S64x64x1x1 ![] bcast_S_S64x64x1x1 (cmpf .ogt normS zeroS))
    (Host.divf (F := Ideal) (toK2 (sumPl (mulf (devS x) (devS x)))) (broadcastInDim S64x64x1x1 ![] bcast_S_S64x64x1x1 normS))
    (broadcastInDim S64x64x1x1 ![] bcast_S_S64x64x1x1 nanS)
def invSk (x : FVec Ideal S64x64x112x112 .f32) : FVec Ideal S64x64x1x1 .f32 :=
  Host.rsqrt (F := Ideal) (addf (varSk x) (broadcastInDim S64x64x1x1 ![] bcast_S_S64x64x1x1 epsS))
/-- The plane normalization of x with the per-sample scale rows g and shift rows bg. -/
def xGroups (x : FVec Ideal S64x64x112x112 .f32) (g bg : FVec Ideal S64x64 .f32) : FVec Ideal S64x64x112x112 .f32 :=
  addf (mulf (mulf (devS x) (ofK2 (invSk x))) (ofK2 (toK2 g))) (ofK2 (toK2 bg))

/-! ### The rows picked by label -/

/-- The divisor the remainder helper uses: 32, or 1 were it 0. -/
def divisor : IVec S_ 32 := select (cmpi .eq (constantI S_ 32 32#32) (constantI S_ 32 0#32)) (constantI S_ 32 1#32) (constantI S_ 32 32#32)
/-- The integer zero and thirty-two along the labels. -/
def zero64 : IVec S64 32 := broadcastInDim S64 ![] bcast_S_S64 (constantI S_ 32 0#32)
def thirtyTwo64 : IVec S64 32 := broadcastInDim S64 ![] bcast_S_S64 (constantI S_ 32 32#32)
/-- The truncating remainder of the labels by the divisor. -/
def rem0 (lab : IVec S64 32) : IVec S64 32 := Host.remsi lab (broadcastInDim S64 ![] bcast_S_S64 divisor)
/-- The remainder helper's result: the truncating remainder, moved by the divisor where it is not zero and its sign
    differs from the divisor's. -/
def remTerm (lab : IVec S64 32) : IVec S64 32 :=
  select (andi (cmpi .ne (cmpi .slt (rem0 lab) zero64) (broadcastInDim S64 ![] bcast_S_S64 (cmpi .slt divisor (constantI S_ 32 0#32))))
      (cmpi .ne (rem0 lab) zero64))
    (addi (rem0 lab) (broadcastInDim S64 ![] bcast_S_S64 divisor)) (rem0 lab)

/-- the rows of a [32, 64] table picked per sample by label mod 32 (the program's own integer chain and gather, as one term) -/
def rows (tbl : FVec Ideal S32x64 .f32) (lab : IVec S64 32) : FVec Ideal S64x64 .f32 :=
  Host.gather gather_S32x64_S64x1_S64x64_1_0_n_n_0_1_164 tbl
    (broadcastInDim S64x1 ![0] bcast_S64_S64x1_0
      (select (cmpi .slt (remTerm lab) zero64) (addi (remTerm lab) thirtyTwo64) (remTerm lab)))

/-! ### The blend -/

def halfF : FVec Ideal S64x64x112x112 .f32 := broadcastInDim S64x64x112x112 ![] bcast_S_S64x64x112x112 halfS
/-- The reference's result as an array of its inputs (the rows already picked). -/
def outV (x : FVec Ideal S64x64x112x112 .f32) (γ β : FVec Ideal S64 .f32) (g bg : FVec Ideal S64x64 .f32) :
    FVec Ideal S64x64x112x112 .f32 :=
  addf (mulf halfF (xGlobal x γ β)) (mulf halfF (xGroups x g bg))

/-! ## The run's result is that array -/

set_option maxRecDepth 16384 in
set_option maxHeartbeats 4000000 in
/-- The fold of the 133 operations at the result buffer is `outV` of the arguments: each operation's result read
    at its own buffer, the typed references' transports being the identity at these literal references. -/
theorem out_eq (V : Valuation τ sig (Elt Ideal)) :
    after (ops (F := Ideal)) V (main_v54 : DevRef τ sig)
      = outV (V (main_arg0 : DevRef τ sig)) (V (main_arg1 : DevRef τ sig)) (V (main_arg2 : DevRef τ sig))
          (rows (V (main_arg3 : DevRef τ sig)) (V (main_arg5 : DevRef τ sig)))
          (rows (V (main_arg4 : DevRef τ sig)) (V (main_arg5 : DevRef τ sig))) := by
  after_results_simp
  rfl

/-- The arguments are written by no operation. -/
theorem arg0_eq (V : Valuation τ sig (Elt Ideal)) : after (ops (F := Ideal)) V (main_arg0 : DevRef τ sig) = V (main_arg0 : DevRef τ sig) := by
  after_results_simp
theorem arg1_eq (V : Valuation τ sig (Elt Ideal)) : after (ops (F := Ideal)) V (main_arg1 : DevRef τ sig) = V (main_arg1 : DevRef τ sig) := by
  after_results_simp
theorem arg2_eq (V : Valuation τ sig (Elt Ideal)) : after (ops (F := Ideal)) V (main_arg2 : DevRef τ sig) = V (main_arg2 : DevRef τ sig) := by
  after_results_simp
theorem arg3_eq (V : Valuation τ sig (Elt Ideal)) : after (ops (F := Ideal)) V (main_arg3 : DevRef τ sig) = V (main_arg3 : DevRef τ sig) := by
  after_results_simp
theorem arg4_eq (V : Valuation τ sig (Elt Ideal)) : after (ops (F := Ideal)) V (main_arg4 : DevRef τ sig) = V (main_arg4 : DevRef τ sig) := by
  after_results_simp
theorem arg5_eq (V : Valuation τ sig (Elt Ideal)) : after (ops (F := Ideal)) V (main_arg5 : DevRef τ sig) = V (main_arg5 : DevRef τ sig) := by
  after_results_simp

/-! ## The layout operations at an index -/

theorem toK1_apply {α : Type} (v : S64.Idx → α) (a : Fin 1) (c : Fin 64) (p q : Fin 1) : toK1 v (ix4 a c p q) = v (ix1 c) := by
  unfold toK1
  exact broadcastInDim_apply _ _ v _ (ix1 c) (fun d => match d with | ⟨0, _⟩ => rfl)

theorem ofK1_apply {α : Type} (u : S1x64x1x1.Idx → α) (b c : Fin 64) (h w : Fin 112) :
    ofK1 u (ix4 b c h w) = u (ix4 0 c 0 0) := by
  unfold ofK1
  exact broadcastInDim_apply _ _ u _ (ix4 0 c 0 0)
    (fun d => match d with | ⟨0, _⟩ => rfl | ⟨1, _⟩ => rfl | ⟨2, _⟩ => rfl | ⟨3, _⟩ => rfl)

theorem toK2_apply {α : Type} (v : S64x64.Idx → α) (b c : Fin 64) (p q : Fin 1) : toK2 v (ix4 b c p q) = v (ix2 b c) := by
  unfold toK2
  exact broadcastInDim_apply _ _ v _ (ix2 b c) (fun d => match d with | ⟨0, _⟩ => rfl | ⟨1, _⟩ => rfl)

theorem ofK2_apply {α : Type} (u : S64x64x1x1.Idx → α) (b c : Fin 64) (h w : Fin 112) :
    ofK2 u (ix4 b c h w) = u (ix4 b c 0 0) := by
  unfold ofK2
  exact broadcastInDim_apply _ _ u _ (ix4 b c 0 0)
    (fun d => match d with | ⟨0, _⟩ => rfl | ⟨1, _⟩ => rfl | ⟨2, _⟩ => rfl | ⟨3, _⟩ => rfl)

/-! ## The sums over several axes -/

/-- With axes 0, 2, 3 reduced, (a, a', h, w) drops to (a'). -/
theorem drop_ch (a a' : Fin 64) (h w : Fin 112) :
    reducesTo_S64x64x112x112_S64_d0_2_3.drop (ix4 a a' h w) = ix1 a' := by
  funext d; match d with | ⟨0, _⟩ => rfl

/-- With axes 2, 3 reduced, (a, a', h, w) drops to (a, a'). -/
theorem drop_pl (a a' : Fin 64) (h w : Fin 112) :
    reducesTo_S64x64x112x112_S64x64_d2_3.drop (ix4 a a' h w) = ix2 a a' := by
  funext d; match d with | ⟨0, _⟩ => rfl | ⟨1, _⟩ => rfl

theorem zeroS_apply (i : S_.Idx) : zeroS i = 0 := Ideal.ofBits_zero_f32

/-- The host's sum over (batch, height, width) from the zero word, at channel c. -/
theorem sumCh_apply (y : FVec Ideal S64x64x112x112 .f32) (c : Fin 64) :
    sumCh y (ix1 c) = ∑ b : Fin 64, ∑ h : Fin 112, ∑ w : Fin 112, y (ix4 b c h w) := by
  unfold sumCh
  rw [hostReduceAdd_apply]
  unfold Ideal.hostReduceAdd
  rw [zeroS_apply, zero_add]
  exact Cert.Blend.sum_filter_channel y c _ (fun a a' h w => by
    rw [drop_ch]
    exact ⟨fun e => Fin.ext (show a'.val = c.val from congrArg (fun f => (f ⟨0, by decide⟩).val) e), fun e => e ▸ rfl⟩)

/-- The host's sum over (height, width) from the zero word, at plane (b, c). -/
theorem sumPl_apply (y : FVec Ideal S64x64x112x112 .f32) (b c : Fin 64) :
    sumPl y (ix2 b c) = ∑ h : Fin 112, ∑ w : Fin 112, y (ix4 b c h w) := by
  unfold sumPl
  rw [hostReduceAdd_apply]
  unfold Ideal.hostReduceAdd
  rw [zeroS_apply, zero_add]
  exact Cert.Blend.sum_filter_plane y b c _ (fun a a' h w => by
    rw [drop_pl]
    exact ⟨fun e => ⟨Fin.ext (show a.val = b.val from congrArg (fun f => (f ⟨0, by decide⟩).val) e),
        Fin.ext (show a'.val = c.val from congrArg (fun f => (f ⟨1, by decide⟩).val) e)⟩, fun e => e.1 ▸ e.2 ▸ rfl⟩)

/-! ## The scalar words -/

theorem nBHWs_apply (i : S_.Idx) : nBHWs i = Cert.Blend.nBHW := rfl
theorem nHWs_apply (i : S_.Idx) : nHWs i = Cert.Blend.nHW := rfl
theorem epsS_apply (i : S_.Idx) : epsS i = Cert.Blend.eps := rfl
theorem halfS_apply (i : S_.Idx) : halfS i = Cert.Blend.half := rfl

/-- The degrees of freedom: the integer 0 read as a real. -/
theorem ddofS_apply (i : S_.Idx) : ddofS i = 0 := by
  show (((0#32 : BitVec 32).toInt : ℝ) : EReal) = 0
  rw [show (0#32 : BitVec 32).toInt = 0 by decide, Int.cast_zero, EReal.coe_zero]

/-- So the normalizers are the counts themselves. -/
theorem normG_apply (i : S_.Idx) : normG i = Cert.Blend.nBHW := by
  unfold normG; rw [subf_apply, ddofS_apply, nBHWs_apply, sub_zero]
theorem normS_apply (i : S_.Idx) : normS i = Cert.Blend.nHW := by
  unfold normS; rw [subf_apply, ddofS_apply, nHWs_apply, sub_zero]

/-- A positive extended real compares greater than zero. -/
theorem cmp_ogt_pos {x : EReal} (h : 0 < x) : Ideal.cmp .ogt x 0 = 1#1 := by
  unfold Ideal.cmp; simp [h]

/-- The guards hold: the counts are positive reals. -/
theorem guardG (i : S_.Idx) : cmpf .ogt normG zeroS i = 1#1 := by
  rw [cmpf_apply, Ideal.cmpf_def, normG_apply, zeroS_apply, Cert.Blend.Consts.nBHW_eq]
  exact cmp_ogt_pos (EReal.coe_pos.mpr (by norm_num))
theorem guardS (i : S_.Idx) : cmpf .ogt normS zeroS i = 1#1 := by
  rw [cmpf_apply, Ideal.cmpf_def, normS_apply, zeroS_apply, Cert.Blend.Consts.nHW_eq]
  exact cmp_ogt_pos (EReal.coe_pos.mpr (by norm_num))

/-! ## The channel normalization at an index -/

theorem muGv_apply (x : FVec Ideal S64x64x112x112 .f32) (c : Fin 64) : muGv x (ix1 c) = Cert.Blend.muG x c := by
  unfold muGv
  rw [hostDivf_apply, broadcastInDim_scalar_apply, sumCh_apply]
  rfl

theorem muGk_apply (x : FVec Ideal S64x64x112x112 .f32) (c : Fin 64) : muGk x (ix4 0 c 0 0) = Cert.Blend.muG x c := by
  unfold muGk
  rw [hostDivf_apply, broadcastInDim_scalar_apply, toK1_apply, sumCh_apply]
  rfl

theorem devG_apply (x : FVec Ideal S64x64x112x112 .f32) (b c : Fin 64) (h w : Fin 112) :
    devG x (ix4 b c h w) = x (ix4 b c h w) - Cert.Blend.muG x c := by
  unfold devG
  rw [subf_apply, ofK1_apply, muGk_apply]

theorem varGv_apply (x : FVec Ideal S64x64x112x112 .f32) (c : Fin 64) : varGv x (ix1 c) = Cert.Blend.rVarG x c := by
  unfold varGv Cert.Blend.rVarG
  simp only [select_apply, hostDivf_apply, sumCh_apply, mulf_apply, devG_apply]
  rw [broadcastInDim_scalar_apply, broadcastInDim_scalar_apply, broadcastInDim_scalar_apply, guardG, select_one, normG_apply]

theorem invGv_apply (x : FVec Ideal S64x64x112x112 .f32) (c : Fin 64) : invGv x (ix1 c) = Cert.Blend.rInvG x c := by
  unfold invGv Cert.Blend.rInvG
  show Ideal.rsqrt (addf (varGv x) (broadcastInDim S64 ![] bcast_S_S64 epsS) (ix1 c)) = _
  rw [addf_apply, broadcastInDim_scalar_apply, varGv_apply, epsS_apply]

theorem xGlobal_apply (x : FVec Ideal S64x64x112x112 .f32) (γ β : FVec Ideal S64 .f32) (b c : Fin 64) (h w : Fin 112) :
    xGlobal x γ β (ix4 b c h w)
      = (x (ix4 b c h w) - Cert.Blend.muG x c) * (γ (ix1 c) * Cert.Blend.rInvG x c) + β (ix1 c) := by
  unfold xGlobal
  simp only [addf_apply, mulf_apply, subf_apply, ofK1_apply, toK1_apply, muGv_apply, invGv_apply]

/-! ## The plane normalization at an index -/

theorem muSk_apply (x : FVec Ideal S64x64x112x112 .f32) (b c : Fin 64) : muSk x (ix4 b c 0 0) = Cert.Blend.muS x b c := by
  unfold muSk
  rw [hostDivf_apply, broadcastInDim_scalar_apply, toK2_apply, sumPl_apply]
  rfl

theorem devS_apply (x : FVec Ideal S64x64x112x112 .f32) (b c : Fin 64) (h w : Fin 112) :
    devS x (ix4 b c h w) = x (ix4 b c h w) - Cert.Blend.muS x b c := by
  unfold devS
  rw [subf_apply, ofK2_apply, muSk_apply]

theorem varSk_apply (x : FVec Ideal S64x64x112x112 .f32) (b c : Fin 64) : varSk x (ix4 b c 0 0) = Cert.Blend.rVarS x b c := by
  unfold varSk Cert.Blend.rVarS
  simp only [select_apply, hostDivf_apply, toK2_apply, sumPl_apply, mulf_apply, devS_apply]
  rw [broadcastInDim_scalar_apply, broadcastInDim_scalar_apply, broadcastInDim_scalar_apply, guardS, select_one, normS_apply]

theorem invSk_apply (x : FVec Ideal S64x64x112x112 .f32) (b c : Fin 64) : invSk x (ix4 b c 0 0) = Cert.Blend.rInvS x b c := by
  unfold invSk Cert.Blend.rInvS
  show Ideal.rsqrt (addf (varSk x) (broadcastInDim S64x64x1x1 ![] bcast_S_S64x64x1x1 epsS) (ix4 b c 0 0)) = _
  rw [addf_apply, broadcastInDim_scalar_apply, varSk_apply, epsS_apply]

theorem xGroups_apply (x : FVec Ideal S64x64x112x112 .f32) (g bg : FVec Ideal S64x64 .f32) (b c : Fin 64) (h w : Fin 112) :
    xGroups x g bg (ix4 b c h w)
      = ((x (ix4 b c h w) - Cert.Blend.muS x b c) * Cert.Blend.rInvS x b c) * g (ix2 b c) + bg (ix2 b c) := by
  unfold xGroups
  simp only [addf_apply, mulf_apply, ofK2_apply, toK2_apply, devS_apply, invSk_apply]

/-! ## The result at an index -/

theorem halfF_apply (i : S64x64x112x112.Idx) : halfF i = Cert.Blend.half := by
  unfold halfF; rw [broadcastInDim_scalar_apply, halfS_apply]

/-- The reference's array at (b, c, h, w) is the specification's formula. -/
theorem outV_apply (x : FVec Ideal S64x64x112x112 .f32) (γ β : FVec Ideal S64 .f32) (g bg : FVec Ideal S64x64 .f32)
    (b c : Fin 64) (h w : Fin 112) :
    outV x γ β g bg (ix4 b c h w) = Cert.Blend.refOut x γ β g bg b c h w := by
  unfold outV Cert.Blend.refOut
  rw [addf_apply, mulf_apply, mulf_apply, halfF_apply, xGlobal_apply, xGroups_apply]

/-! ## The run -/

/-- For any memory with zero counters: every weakly fair execution of the reference terminates with its result, index
    by index, at the specification's formula of the launch contents (the table rows as `rows` picks them), and
    the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (b c' : Fin 64) (h w : Fin 112), r.2.mem ((c.tc : Thread nD τ).loc main_v54) (ix4 b c' h w)
          = Cert.Blend.refOut (m ((c.tc : Thread nD τ).loc main_arg0)) (m ((c.tc : Thread nD τ).loc main_arg1))
              (m ((c.tc : Thread nD τ).loc main_arg2))
              (rows (m ((c.tc : Thread nD τ).loc main_arg3)) (m ((c.tc : Thread nD τ).loc main_arg5)))
              (rows (m ((c.tc : Thread nD τ).loc main_arg4)) (m ((c.tc : Thread nD τ).loc main_arg5))) b c' h w)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ hr c =>
      ⟨fun b c' h w => (congrFun ((hr c main_v54).trans (out_eq _)) (ix4 b c' h w)).trans (outV_apply _ _ _ _ _ b c' h w),
        (hr c main_arg0).trans (arg0_eq _), (hr c main_arg1).trans (arg1_eq _), (hr c main_arg2).trans (arg2_eq _),
        (hr c main_arg3).trans (arg3_eq _), (hr c main_arg4).trans (arg4_eq _), (hr c main_arg5).trans (arg5_eq _)⟩)
    (run_main m ρ)

end Cert.ReferenceIdeal.RefValue
end
-- ==== Proof.lean ====
/-
  The certificate: the kernel program and the reference compute one function of their inputs over the extended reals.

  Both blend, with weight 1/2 each, a batch normalization of x : [64, 64, 112, 112] per channel and a per-sample
  normalization per (sample, channel) whose scale and shift rows are picked by label mod 32.  The kernel does it in two
  launches: plane sums and sums of squares first, then ONE affine map per plane, out = x · A + B, with A and B folded on the
  host from one-pass variances max(E[x²] − E[x]², 0).  The reference normalizes x directly with two-pass variances
  E[(x − E[x])²].  Over the reals the two variances are one number and the fold is distributivity (modules LibVariance,
  Algebra); that the inputs are reals is the precondition (module Finite); what each program's result array holds, index by
  index, is read off its run (modules KernelValue and RefValue, over the formulas of module Spec).

  The three frame claims are the runs with the result dropped; the idealization rewrote nothing, so its claim is trivial.
-/
import proofs.«139731_j76192719831877_2_alg».proof.Defs
import proofs.«139731_j76192719831877_2_alg».proof.Proof.Gen.Kernel
import proofs.«139731_j76192719831877_2_alg».proof.Proof.Gen.Kernel.Skeleton
import proofs.«139731_j76192719831877_2_alg».proof.Proof.Gen.Kernel.Launch
import proofs.«139731_j76192719831877_2_alg».proof.Proof.Gen.Kernel.Points
import proofs.«139731_j76192719831877_2_alg».proof.Proof.Gen.Kernel.Frame
import proofs.«139731_j76192719831877_2_alg».proof.Proof.Gen.KernelIdeal
import proofs.«139731_j76192719831877_2_alg».proof.Proof.Gen.KernelIdeal.Skeleton
import proofs.«139731_j76192719831877_2_alg».proof.Proof.Gen.KernelIdeal.Launch
import proofs.«139731_j76192719831877_2_alg».proof.Proof.Gen.KernelIdeal.Points
import proofs.«139731_j76192719831877_2_alg».proof.Proof.Gen.KernelIdeal.Frame
import proofs.«139731_j76192719831877_2_alg».proof.Proof.Gen.ReferenceIdeal
import proofs.«139731_j76192719831877_2_alg».proof.Proof.Gen.Pre_finite_inputs
import proofs.«139731_j76192719831877_2_alg».proof.Proof.Algebra
import proofs.«139731_j76192719831877_2_alg».proof.Proof.Finite
import proofs.«139731_j76192719831877_2_alg».proof.Proof.KernelValue
import proofs.«139731_j76192719831877_2_alg».proof.Proof.RefValue
import Idealize.ShloMosaic.Adequacy
import Idealize.ShloMosaic.Init

noncomputable section

namespace Cert.Proof

open Idealize.ShloMosaic Idealize.ShloMosaic.ValueIdx Idealize.SL.Sem Cert.Blend

/-- The two programs pick the rows of a [32, 64] table by the same integer chain (label mod 32, the sign fix-up, the gather):
    one term, spelt once in each program's vocabulary. -/
theorem rows_eq (tbl : FVec Ideal Cert.KernelIdeal.S32x64 .f32) (lab : IVec Cert.KernelIdeal.S64 32) :
    Cert.KernelIdeal.Glue.rows tbl lab = Cert.ReferenceIdeal.RefValue.rows tbl lab := rfl

/-- The picked rows of a table of reals are reals: a gather copies entries. -/
theorem rows_real (tbl : FVec Ideal Cert.KernelIdeal.S32x64 .f32) (lab : IVec Cert.KernelIdeal.S64 32)
    (h : ∀ i, ∃ r : ℝ, tbl i = (r : EReal)) (j : Cert.KernelIdeal.S64x64.Idx) :
    ∃ r : ℝ, Cert.KernelIdeal.Glue.rows tbl lab j = (r : EReal) :=
  gather_real _ tbl _ h j

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories agreeing on the arguments, both programs end with the result at kernelOut of the kernel's arguments:
    the kernel by its run, the reference by its run, the agreement, and kernelOut = refOut on real inputs. -/
theorem algebraic : Cert.algebraic_KernelIdeal_ReferenceIdeal := by
  intro m ρ m' ρ' hpre hagree
  refine ⟨fun c => fun i => kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.KernelIdeal.Glue.rows (m ((c.tc : Thread Cert.KernelIdeal.nD Cert.KernelIdeal.τ).loc Cert.KernelIdeal.main_arg3))
        (m ((c.tc : Thread Cert.KernelIdeal.nD Cert.KernelIdeal.τ).loc Cert.KernelIdeal.main_arg5)))
      (Cert.KernelIdeal.Glue.rows (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (i 0) (i 1) (i 2) (i 3), ?_, ?_⟩
  · refine (θ_run Cert.KernelIdeal.defs _ _).mono (fun r h c => ⟨?_, (h c).2⟩) (Cert.KernelIdeal.Whole.run m ρ)
    funext i
    rw [eq_ix4 i]
    exact (h c).1 (i 0) (i 1) (i 2) (i 3)
  · refine (θ_run Cert.ReferenceIdeal.defs _ _).mono (fun r h c => ⟨?_, (h c).2⟩) (Cert.ReferenceIdeal.RefValue.run m' ρ')
    obtain ⟨f0, f1, f2, f3, f4⟩ := reals_of_pre _ _ _ _ _ _ (hpre c)
    funext i
    rw [eq_ix4 i]
    refine ((h c).1 (i 0) (i 1) (i 2) (i 3)).trans ?_
    rw [(hagree c).1, (hagree c).2.1, (hagree c).2.2.1, (hagree c).2.2.2.1, (hagree c).2.2.2.2.1, (hagree c).2.2.2.2.2,
      ← rows_eq, ← rows_eq]
    exact (kernelOut_eq_refOut _ _ _ _ _ f0 f1 f2 (rows_real _ _ f3) (rows_real _ _ f4) (i 0) (i 1) (i 2) (i 3)).symm

theorem claim : Cert.Claim := ⟨Cert.Kernel.Gen.facts, Cert.KernelIdeal.Gen.facts, Cert.ReferenceIdeal.Gen.facts,
  Cert.Pre_finite_inputs.Gen.facts, frame_p, frame_pi, frame_ri, preserves, algebraic⟩

end Cert.Proof

end
